-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x260x260 : Shape := ⟨4, ![8, 64, 260, 260]⟩
abbrev S8x25x256x256 : Shape := ⟨4, ![8, 25, 256, 256]⟩
abbrev S_ : Shape := ⟨0, ![]⟩

class Facts : Prop where
  bcast_S_S8x64x260x260 : S_.BroadcastsInDim S8x64x260x260 (![] : Fin 0 → Fin S8x64x260x260.rank)
  reducesTo_S8x64x260x260_S_d0_1_2_3 : S8x64x260x260.ReducesTo [0, 1, 2, 3] S_
  h_S_ : 0 < S_.numel
  bcast_S_S8x25x256x256 : S_.BroadcastsInDim S8x25x256x256 (![] : Fin 0 → Fin S8x25x256x256.rank)
  reducesTo_S8x25x256x256_S_d0_1_2_3 : S8x25x256x256.ReducesTo [0, 1, 2, 3] S_

variable [Facts]

def fn {F : FTy → Type} [FloatOps F] (main_arg0 : FVec F S8x64x260x260 .f32) (main_arg1 : FVec F S8x25x256x256 .f32) : IVec S_ 1 :=
  let main_v0 : FVec F S8x64x260x260 .f32 := Host.absf main_arg0
  let main_cst : FVec F S_ .f32 := constant S_ .f32 0x7F800000#32
  let main_v1 : FVec F S8x64x260x260 .f32 := broadcastInDim S8x64x260x260 ![] bcast_S_S8x64x260x260 main_cst
  let main_v2 : IVec S8x64x260x260 1 := cmpf .olt main_v0 main_v1
  let main_c : IVec S_ 1 := constantI S_ 1 1#1
  let main_v3 : IVec S_ 1 := (fun x v => Host.reduce IntOp.andi x v reducesTo_S8x64x260x260_S_d0_1_2_3 h_S_) main_v2 main_c
  let main_v4 : FVec F S8x25x256x256 .f32 := Host.absf main_arg1
  let main_cst_0 : FVec F S_ .f32 := constant S_ .f32 0x7F800000#32
  let main_v5 : FVec F S8x25x256x256 .f32 := broadcastInDim S8x25x256x256 ![] bcast_S_S8x25x256x256 main_cst_0
  let main_v6 : IVec S8x25x256x256 1 := cmpf .olt main_v4 main_v5
  let main_c_1 : IVec S_ 1 := constantI S_ 1 1#1
  let main_v7 : IVec S_ 1 := (fun x v => Host.reduce IntOp.andi x v reducesTo_S8x25x256x256_S_d0_1_2_3 h_S_) main_v6 main_c_1
  let main_v8 : IVec S_ 1 := andi main_v3 main_v7
  main_v8
-- ==== Kernel.lean ====
abbrev S8x64x260x260 : Shape := ⟨4, ![8, 64, 260, 260]⟩
abbrev S8x25x256x256 : Shape := ⟨4, ![8, 25, 256, 256]⟩
abbrev S8x64x256x256 : Shape := ⟨4, ![8, 64, 256, 256]⟩
abbrev S1x16x260x260 : Shape := ⟨4, ![1, 16, 260, 260]⟩
abbrev S1x25x256x256 : Shape := ⟨4, ![1, 25, 256, 256]⟩
abbrev S1x16x256x256 : Shape := ⟨4, ![1, 16, 256, 256]⟩
abbrev S16x256x256 : Shape := ⟨3, ![16, 256, 256]⟩
abbrev S1x1x256x256 : Shape := ⟨4, ![1, 1, 256, 256]⟩
abbrev S256x256 : Shape := ⟨2, ![256, 256]⟩
abbrev S1x256x256 : Shape := ⟨3, ![1, 256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8x64x260x260, .f32⟩
  | .hbm, ⟨1, _⟩ => ⟨S8x25x256x256, .f32⟩
  | .hbm, ⟨2, _⟩ => ⟨S8x64x256x256, .f32⟩
  | .local _ .vmem, ⟨0, _⟩ => ⟨S1x16x260x260, .f32⟩
  | .local _ .vmem, ⟨1, _⟩ => ⟨S1x16x260x260, .f32⟩
  | .local _ .vmem, ⟨2, _⟩ => ⟨S1x25x256x256, .f32⟩
  | .local _ .vmem, ⟨3, _⟩ => ⟨S1x25x256x256, .f32⟩
  | .local _ .vmem, ⟨4, _⟩ => ⟨S1x16x256x256, .f32⟩
  | .local _ .vmem, ⟨5, _⟩ => ⟨S1x16x256x256, .f32⟩
  | _, _ => ⟨S8x64x260x260, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x260x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x25x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x16x260x260_S1x16x256x256_0_0_0_0 : ∀ a, (![0, 0, 0, 0] : Fin 4 → Nat) a + S1x16x256x256.size a ≤ S1x16x260x260.size a
  h_S1x16x256x256 : 0 < S1x16x256x256.numel
  shapeCasts_S1x16x256x256_S16x256x256 : S1x16x256x256.ShapeCasts S16x256x256
  inb_S1x25x256x256_S1x1x256x256_0_0_0_0 : ∀ a, (![0, 0, 0, 0] : Fin 4 → Nat) a + S1x1x256x256.size a ≤ S1x25x256x256.size a
  h_S1x1x256x256 : 0 < S1x1x256x256.numel
  shapeCasts_S1x1x256x256_S256x256 : S1x1x256x256.ShapeCasts S256x256
  shapeCasts_S256x256_S1x256x256 : S256x256.ShapeCasts S1x256x256
  broadcasts_S1x256x256_S16x256x256 : S1x256x256.Broadcasts S16x256x256
  inb_S1x16x256x256_S1x16x256x256_0_0_0_0 : ∀ a, (![0, 0, 0, 0] : Fin 4 → Nat) a + S1x16x256x256.size a ≤ S1x16x256x256.size a
  shapeCasts_S16x256x256_S1x16x256x256 : S16x256x256.ShapeCasts S1x16x256x256
  inb_S1x16x260x260_S1x16x256x256_0_0_0_1 : ∀ a, (![0, 0, 0, 1] : Fin 4 → Nat) a + S1x16x256x256.size a ≤ S1x16x260x260.size a
  inb_S1x25x256x256_S1x1x256x256_0_1_0_0 : ∀ a, (![0, 1, 0, 0] : Fin 4 → Nat) a + S1x1x256x256.size a ≤ S1x25x256x256.size a
  inb_S1x16x260x260_S1x16x256x256_0_0_0_2 : ∀ a, (![0, 0, 0, 2] : Fin 4 → Nat) a + S1x16x256x256.size a ≤ S1x16x260x260.size a
  inb_S1x25x256x256_S1x1x256x256_0_2_0_0 : ∀ a, (![0, 2, 0, 0] : Fin 4 → Nat) a + S1x1x256x256.size a ≤ S1x25x256x256.size a
  inb_S1x16x260x260_S1x16x256x256_0_0_0_3 : ∀ a, (![0, 0, 0, 3] : Fin 4 → Nat) a + S1x16x256x256.size a ≤ S1x16x260x260.size a
  inb_S1x25x256x256_S1x1x256x256_0_3_0_0 : ∀ a, (![0, 3, 0, 0] : Fin 4 → Nat) a + S1x1x256x256.size a ≤ S1x25x256x256.size a
  inb_S1x16x260x260_S1x16x256x256_0_0_0_4 : ∀ a, (![0, 0, 0, 4] : Fin 4 → Nat) a + S1x16x256x256.size a ≤ S1x16x260x260.size a
  inb_S1x25x256x256_S1x1x256x256_0_4_0_0 : ∀ a, (![0, 4, 0, 0] : Fin 4 → Nat) a + S1x1x256x256.size a ≤ S1x25x256x256.size a
  inb_S1x16x260x260_S1x16x256x256_0_0_1_0 : ∀ a, (![0, 0, 1, 0] : Fin 4 → Nat) a + S1x16x256x256.size a ≤ S1x16x260x260.size a
  inb_S1x25x256x256_S1x1x256x256_0_5_0_0 : ∀ a, (![0, 5, 0, 0] : Fin 4 → Nat) a + S1x1x256x256.size a ≤ S1x25x256x256.size a
  inb_S1x16x260x260_S1x16x256x256_0_0_1_1 : ∀ a, (![0, 0, 1, 1] : Fin 4 → Nat) a + S1x16x256x256.size a ≤ S1x16x260x260.size a
  inb_S1x25x256x256_S1x1x256x256_0_6_0_0 : ∀ a, (![0, 6, 0, 0] : Fin 4 → Nat) a + S1x1x256x256.size a ≤ S1x25x256x256.size a
  inb_S1x16x260x260_S1x16x256x256_0_0_1_2 : ∀ a, (![0, 0, 1, 2] : Fin 4 → Nat) a + S1x16x256x256.size a ≤ S1x16x260x260.size a
  inb_S1x25x256x256_S1x1x256x256_0_7_0_0 : ∀ a, (![0, 7, 0, 0] : Fin 4 → Nat) a + S1x1x256x256.size a ≤ S1x25x256x256.size a
  inb_S1x16x260x260_S1x16x256x256_0_0_1_3 : ∀ a, (![0, 0, 1, 3] : Fin 4 → Nat) a + S1x16x256x256.size a ≤ S1x16x260x260.size a
  inb_S1x25x256x256_S1x1x256x256_0_8_0_0 : ∀ a, (![0, 8, 0, 0] : Fin 4 → Nat) a + S1x1x256x256.size a ≤ S1x25x256x256.size a
  inb_S1x16x260x260_S1x16x256x256_0_0_1_4 : ∀ a, (![0, 0, 1, 4] : Fin 4 → Nat) a + S1x16x256x256.size a ≤ S1x16x260x260.size a
  inb_S1x25x256x256_S1x1x256x256_0_9_0_0 : ∀ a, (![0, 9, 0, 0] : Fin 4 → Nat) a + S1x1x256x256.size a ≤ S1x25x256x256.size a
  inb_S1x16x260x260_S1x16x256x256_0_0_2_0 : ∀ a, (![0, 0, 2, 0] : Fin 4 → Nat) a + S1x16x256x256.size a ≤ S1x16x260x260.size a
  inb_S1x25x256x256_S1x1x256x256_0_10_0_0 : ∀ a, (![0, 10, 0, 0] : Fin 4 → Nat) a + S1x1x256x256.size a ≤ S1x25x256x256.size a
  inb_S1x16x260x260_S1x16x256x256_0_0_2_1 : ∀ a, (![0, 0, 2, 1] : Fin 4 → Nat) a + S1x16x256x256.size a ≤ S1x16x260x260.size a
  inb_S1x25x256x256_S1x1x256x256_0_11_0_0 : ∀ a, (![0, 11, 0, 0] : Fin 4 → Nat) a + S1x1x256x256.size a ≤ S1x25x256x256.size a
  inb_S1x16x260x260_S1x16x256x256_0_0_2_2 : ∀ a, (![0, 0, 2, 2] : Fin 4 → Nat) a + S1x16x256x256.size a ≤ S1x16x260x260.size a
  inb_S1x25x256x256_S1x1x256x256_0_12_0_0 : ∀ a, (![0, 12, 0, 0] : Fin 4 → Nat) a + S1x1x256x256.size a ≤ S1x25x256x256.size a
  inb_S1x16x260x260_S1x16x256x256_0_0_2_3 : ∀ a, (![0, 0, 2, 3] : Fin 4 → Nat) a + S1x16x256x256.size a ≤ S1x16x260x260.size a
  inb_S1x25x256x256_S1x1x256x256_0_13_0_0 : ∀ a, (![0, 13, 0, 0] : Fin 4 → Nat) a + S1x1x256x256.size a ≤ S1x25x256x256.size a
  inb_S1x16x260x260_S1x16x256x256_0_0_2_4 : ∀ a, (![0, 0, 2, 4] : Fin 4 → Nat) a + S1x16x256x256.size a ≤ S1x16x260x260.size a
  inb_S1x25x256x256_S1x1x256x256_0_14_0_0 : ∀ a, (![0, 14, 0, 0] : Fin 4 → Nat) a + S1x1x256x256.size a ≤ S1x25x256x256.size a
  inb_S1x16x260x260_S1x16x256x256_0_0_3_0 : ∀ a, (![0, 0, 3, 0] : Fin 4 → Nat) a + S1x16x256x256.size a ≤ S1x16x260x260.size a
  inb_S1x25x256x256_S1x1x256x256_0_15_0_0 : ∀ a, (![0, 15, 0, 0] : Fin 4 → Nat) a + S1x1x256x256.size a ≤ S1x25x256x256.size a
  inb_S1x16x260x260_S1x16x256x256_0_0_3_1 : ∀ a, (![0, 0, 3, 1] : Fin 4 → Nat) a + S1x16x256x256.size a ≤ S1x16x260x260.size a
  inb_S1x25x256x256_S1x1x256x256_0_16_0_0 : ∀ a, (![0, 16, 0, 0] : Fin 4 → Nat) a + S1x1x256x256.size a ≤ S1x25x256x256.size a
  inb_S1x16x260x260_S1x16x256x256_0_0_3_2 : ∀ a, (![0, 0, 3, 2] : Fin 4 → Nat) a + S1x16x256x256.size a ≤ S1x16x260x260.size a
  inb_S1x25x256x256_S1x1x256x256_0_17_0_0 : ∀ a, (![0, 17, 0, 0] : Fin 4 → Nat) a + S1x1x256x256.size a ≤ S1x25x256x256.size a
  inb_S1x16x260x260_S1x16x256x256_0_0_3_3 : ∀ a, (![0, 0, 3, 3] : Fin 4 → Nat) a + S1x16x256x256.size a ≤ S1x16x260x260.size a
  inb_S1x25x256x256_S1x1x256x256_0_18_0_0 : ∀ a, (![0, 18, 0, 0] : Fin 4 → Nat) a + S1x1x256x256.size a ≤ S1x25x256x256.size a
  inb_S1x16x260x260_S1x16x256x256_0_0_3_4 : ∀ a, (![0, 0, 3, 4] : Fin 4 → Nat) a + S1x16x256x256.size a ≤ S1x16x260x260.size a
  inb_S1x25x256x256_S1x1x256x256_0_19_0_0 : ∀ a, (![0, 19, 0, 0] : Fin 4 → Nat) a + S1x1x256x256.size a ≤ S1x25x256x256.size a
  inb_S1x16x260x260_S1x16x256x256_0_0_4_0 : ∀ a, (![0, 0, 4, 0] : Fin 4 → Nat) a + S1x16x256x256.size a ≤ S1x16x260x260.size a
  inb_S1x25x256x256_S1x1x256x256_0_20_0_0 : ∀ a, (![0, 20, 0, 0] : Fin 4 → Nat) a + S1x1x256x256.size a ≤ S1x25x256x256.size a
  inb_S1x16x260x260_S1x16x256x256_0_0_4_1 : ∀ a, (![0, 0, 4, 1] : Fin 4 → Nat) a + S1x16x256x256.size a ≤ S1x16x260x260.size a
  inb_S1x25x256x256_S1x1x256x256_0_21_0_0 : ∀ a, (![0, 21, 0, 0] : Fin 4 → Nat) a + S1x1x256x256.size a ≤ S1x25x256x256.size a
  inb_S1x16x260x260_S1x16x256x256_0_0_4_2 : ∀ a, (![0, 0, 4, 2] : Fin 4 → Nat) a + S1x16x256x256.size a ≤ S1x16x260x260.size a
  inb_S1x25x256x256_S1x1x256x256_0_22_0_0 : ∀ a, (![0, 22, 0, 0] : Fin 4 → Nat) a + S1x1x256x256.size a ≤ S1x25x256x256.size a
  inb_S1x16x260x260_S1x16x256x256_0_0_4_3 : ∀ a, (![0, 0, 4, 3] : Fin 4 → Nat) a + S1x16x256x256.size a ≤ S1x16x260x260.size a
  inb_S1x25x256x256_S1x1x256x256_0_23_0_0 : ∀ a, (![0, 23, 0, 0] : Fin 4 → Nat) a + S1x1x256x256.size a ≤ S1x25x256x256.size a
  inb_S1x16x260x260_S1x16x256x256_0_0_4_4 : ∀ a, (![0, 0, 4, 4] : Fin 4 → Nat) a + S1x16x256x256.size a ≤ S1x16x260x260.size a
  inb_S1x25x256x256_S1x1x256x256_0_24_0_0 : ∀ a, (![0, 24, 0, 0] : Fin 4 → Nat) a + S1x1x256x256.size a ≤ S1x25x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x260x260.size a ≤ S8x64x260x260.size a
  hwx0_0 : ∀ i : grid0.Coords, EltTy.bits .f32 = 32 ∨ (Rect.block (s := S8x64x260x260) S1x16x260x260.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x25x256x256.size a ≤ S8x25x256x256.size a
  hwx0_1 : ∀ i : grid0.Coords, EltTy.bits .f32 = 32 ∨ (Rect.block (s := S8x25x256x256) S1x25x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S8x64x256x256.size a
  hwx0_2 : ∀ i : grid0.Coords, EltTy.bits .f32 = 32 ∨ (Rect.block (s := S8x64x256x256) S1x16x256x256.size (cc0_transform_2 i) (hinb0_2 i)).WholeWords (EltTy.packing .f32)

variable [Facts₀]

abbrev win0_0 : Pipeline.Window sig grid0 :=
  Pipeline.Window.ofSpec (Memref.whole main_arg0) S1x16x260x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x25x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x260x260 : Shape := ⟨4, ![8, 64, 260, 260]⟩
abbrev S8x25x256x256 : Shape := ⟨4, ![8, 25, 256, 256]⟩
abbrev S_ : Shape := ⟨0, ![]⟩
abbrev S8x64x256x256 : Shape := ⟨4, ![8, 64, 256, 256]⟩
abbrev S8x1x256x256 : Shape := ⟨4, ![8, 1, 256, 256]⟩
abbrev S8x256x256 : Shape := ⟨3, ![8, 256, 256]⟩

abbrev nBuf : Space → Nat
  | .hbm => 179
  | .vmem => 0
  | .smem => 0
  | _ => 0

abbrev hbmTy0_0 (i : Nat) : BufTy := match i % 128 with
  | 0 => ⟨S8x64x260x260, .f32⟩
  | 1 => ⟨S8x25x256x256, .f32⟩
  | 2 => ⟨S_, .f32⟩
  | 3 => ⟨S8x64x256x256, .f32⟩
  | 4 => ⟨S8x64x256x256, .f32⟩
  | 5 => ⟨S8x1x256x256, .f32⟩
  | 6 => ⟨S8x256x256, .f32⟩
  | 7 => ⟨S8x1x256x256, .f32⟩
  | 8 => ⟨S8x64x256x256, .f32⟩
  | 9 => ⟨S8x64x256x256, .f32⟩
  | 10 => ⟨S8x64x256x256, .f32⟩
  | 11 => ⟨S8x64x256x256, .f32⟩
  | 12 => ⟨S8x1x256x256, .f32⟩
  | 13 => ⟨S8x256x256, .f32⟩
  | 14 => ⟨S8x1x256x256, .f32⟩
  | 15 => ⟨S8x64x256x256, .f32⟩
  | 16 => ⟨S8x64x256x256, .f32⟩
  | 17 => ⟨S8x64x256x256, .f32⟩
  | 18 => ⟨S8x64x256x256, .f32⟩
  | 19 => ⟨S8x1x256x256, .f32⟩
  | 20 => ⟨S8x256x256, .f32⟩
  | 21 => ⟨S8x1x256x256, .f32⟩
  | 22 => ⟨S8x64x256x256, .f32⟩
  | 23 => ⟨S8x64x256x256, .f32⟩
  | 24 => ⟨S8x64x256x256, .f32⟩
  | 25 => ⟨S8x64x256x256, .f32⟩
  | 26 => ⟨S8x1x256x256, .f32⟩
  | 27 => ⟨S8x256x256, .f32⟩
  | 28 => ⟨S8x1x256x256, .f32⟩
  | 29 => ⟨S8x64x256x256, .f32⟩
  | 30 => ⟨S8x64x256x256, .f32⟩
  | 31 => ⟨S8x64x256x256, .f32⟩
  | 32 => ⟨S8x64x256x256, .f32⟩
  | 33 => ⟨S8x1x256x256, .f32⟩
  | 34 => ⟨S8x256x256, .f32⟩
  | 35 => ⟨S8x1x256x256, .f32⟩
  | 36 => ⟨S8x64x256x256, .f32⟩
  | 37 => ⟨S8x64x256x256, .f32⟩
  | 38 => ⟨S8x64x256x256, .f32⟩
  | 39 => ⟨S8x64x256x256, .f32⟩
  | 40 => ⟨S8x1x256x256, .f32⟩
  | 41 => ⟨S8x256x256, .f32⟩
  | 42 => ⟨S8x1x256x256, .f32⟩
  | 43 => ⟨S8x64x256x256, .f32⟩
  | 44 => ⟨S8x64x256x256, .f32⟩
  | 45 => ⟨S8x64x256x256, .f32⟩
  | 46 => ⟨S8x64x256x256, .f32⟩
  | 47 => ⟨S8x1x256x256, .f32⟩
  | 48 => ⟨S8x256x256, .f32⟩
  | 49 => ⟨S8x1x256x256, .f32⟩
  | 50 => ⟨S8x64x256x256, .f32⟩
  | 51 => ⟨S8x64x256x256, .f32⟩
  | 52 => ⟨S8x64x256x256, .f32⟩
  | 53 => ⟨S8x64x256x256, .f32⟩
  | 54 => ⟨S8x1x256x256, .f32⟩
  | 55 => ⟨S8x256x256, .f32⟩
  | 56 => ⟨S8x1x256x256, .f32⟩
  | 57 => ⟨S8x64x256x256, .f32⟩
  | 58 => ⟨S8x64x256x256, .f32⟩
  | 59 => ⟨S8x64x256x256, .f32⟩
  | 60 => ⟨S8x64x256x256, .f32⟩
  | 61 => ⟨S8x1x256x256, .f32⟩
  | 62 => ⟨S8x256x256, .f32⟩
  | 63 => ⟨S8x1x256x256, .f32⟩
  | 64 => ⟨S8x64x256x256, .f32⟩
  | 65 => ⟨S8x64x256x256, .f32⟩
  | 66 => ⟨S8x64x256x256, .f32⟩
  | 67 => ⟨S8x64x256x256, .f32⟩
  | 68 => ⟨S8x1x256x256, .f32⟩
  | 69 => ⟨S8x256x256, .f32⟩
  | 70 => ⟨S8x1x256x256, .f32⟩
  | 71 => ⟨S8x64x256x256, .f32⟩
  | 72 => ⟨S8x64x256x256, .f32⟩
  | 73 => ⟨S8x64x256x256, .f32⟩
  | 74 => ⟨S8x64x256x256, .f32⟩
  | 75 => ⟨S8x1x256x256, .f32⟩
  | 76 => ⟨S8x256x256, .f32⟩
  | 77 => ⟨S8x1x256x256, .f32⟩
  | 78 => ⟨S8x64x256x256, .f32⟩
  | 79 => ⟨S8x64x256x256, .f32⟩
  | 80 => ⟨S8x64x256x256, .f32⟩
  | 81 => ⟨S8x64x256x256, .f32⟩
  | 82 => ⟨S8x1x256x256, .f32⟩
  | 83 => ⟨S8x256x256, .f32⟩
  | 84 => ⟨S8x1x256x256, .f32⟩
  | 85 => ⟨S8x64x256x256, .f32⟩
  | 86 => ⟨S8x64x256x256, .f32⟩
  | 87 => ⟨S8x64x256x256, .f32⟩
  | 88 => ⟨S8x64x256x256, .f32⟩
  | 89 => ⟨S8x1x256x256, .f32⟩
  | 90 => ⟨S8x256x256, .f32⟩
  | 91 => ⟨S8x1x256x256, .f32⟩
  | 92 => ⟨S8x64x256x256, .f32⟩
  | 93 => ⟨S8x64x256x256, .f32⟩
  | 94 => ⟨S8x64x256x256, .f32⟩
  | 95 => ⟨S8x64x256x256, .f32⟩
  | 96 => ⟨S8x1x256x256, .f32⟩
  | 97 => ⟨S8x256x256, .f32⟩
  | 98 => ⟨S8x1x256x256, .f32⟩
  | 99 => ⟨S8x64x256x256, .f32⟩
  | 100 => ⟨S8x64x256x256, .f32⟩
  | 101 => ⟨S8x64x256x256, .f32⟩
  | 102 => ⟨S8x64x256x256, .f32⟩
  | 103 => ⟨S8x1x256x256, .f32⟩
  | 104 => ⟨S8x256x256, .f32⟩
  | 105 => ⟨S8x1x256x256, .f32⟩
  | 106 => ⟨S8x64x256x256, .f32⟩
  | 107 => ⟨S8x64x256x256, .f32⟩
  | 108 => ⟨S8x64x256x256, .f32⟩
  | 109 => ⟨S8x64x256x256, .f32⟩
  | 110 => ⟨S8x1x256x256, .f32⟩
  | 111 => ⟨S8x256x256, .f32⟩
  | 112 => ⟨S8x1x256x256, .f32⟩
  | 113 => ⟨S8x64x256x256, .f32⟩
  | 114 => ⟨S8x64x256x256, .f32⟩
  | 115 => ⟨S8x64x256x256, .f32⟩
  | 116 => ⟨S8x64x256x256, .f32⟩
  | 117 => ⟨S8x1x256x256, .f32⟩
  | 118 => ⟨S8x256x256, .f32⟩
  | 119 => ⟨S8x1x256x256, .f32⟩
  | 120 => ⟨S8x64x256x256, .f32⟩
  | 121 => ⟨S8x64x256x256, .f32⟩
  | 122 => ⟨S8x64x256x256, .f32⟩
  | 123 => ⟨S8x64x256x256, .f32⟩
  | 124 => ⟨S8x1x256x256, .f32⟩
  | 125 => ⟨S8x256x256, .f32⟩
  | 126 => ⟨S8x1x256x256, .f32⟩
  | 127 => ⟨S8x64x256x256, .f32⟩
  | _ => ⟨S8x64x260x260, .f32⟩

abbrev hbmTy0_1 (i : Nat) : BufTy := match i % 128 with
  | 0 => ⟨S8x64x256x256, .f32⟩
  | 1 => ⟨S8x64x256x256, .f32⟩
  | 2 => ⟨S8x64x256x256, .f32⟩
  | 3 => ⟨S8x1x256x256, .f32⟩
  | 4 => ⟨S8x256x256, .f32⟩
  | 5 => ⟨S8x1x256x256, .f32⟩
  | 6 => ⟨S8x64x256x256, .f32⟩
  | 7 => ⟨S8x64x256x256, .f32⟩
  | 8 => ⟨S8x64x256x256, .f32⟩
  | 9 => ⟨S8x64x256x256, .f32⟩
  | 10 => ⟨S8x1x256x256, .f32⟩
  | 11 => ⟨S8x256x256, .f32⟩
  | 12 => ⟨S8x1x256x256, .f32⟩
  | 13 => ⟨S8x64x256x256, .f32⟩
  | 14 => ⟨S8x64x256x256, .f32⟩
  | 15 => ⟨S8x64x256x256, .f32⟩
  | 16 => ⟨S8x64x256x256, .f32⟩
  | 17 => ⟨S8x1x256x256, .f32⟩
  | 18 => ⟨S8x256x256, .f32⟩
  | 19 => ⟨S8x1x256x256, .f32⟩
  | 20 => ⟨S8x64x256x256, .f32⟩
  | 21 => ⟨S8x64x256x256, .f32⟩
  | 22 => ⟨S8x64x256x256, .f32⟩
  | 23 => ⟨S8x64x256x256, .f32⟩
  | 24 => ⟨S8x1x256x256, .f32⟩
  | 25 => ⟨S8x256x256, .f32⟩
  | 26 => ⟨S8x1x256x256, .f32⟩
  | 27 => ⟨S8x64x256x256, .f32⟩
  | 28 => ⟨S8x64x256x256, .f32⟩
  | 29 => ⟨S8x64x256x256, .f32⟩
  | 30 => ⟨S8x64x256x256, .f32⟩
  | 31 => ⟨S8x1x256x256, .f32⟩
  | 32 => ⟨S8x256x256, .f32⟩
  | 33 => ⟨S8x1x256x256, .f32⟩
  | 34 => ⟨S8x64x256x256, .f32⟩
  | 35 => ⟨S8x64x256x256, .f32⟩
  | 36 => ⟨S8x64x256x256, .f32⟩
  | 37 => ⟨S8x64x256x256, .f32⟩
  | 38 => ⟨S8x1x256x256, .f32⟩
  | 39 => ⟨S8x256x256, .f32⟩
  | 40 => ⟨S8x1x256x256, .f32⟩
  | 41 => ⟨S8x64x256x256, .f32⟩
  | 42 => ⟨S8x64x256x256, .f32⟩
  | 43 => ⟨S8x64x256x256, .f32⟩
  | 44 => ⟨S8x64x256x256, .f32⟩
  | 45 => ⟨S8x1x256x256, .f32⟩
  | 46 => ⟨S8x256x256, .f32⟩
  | 47 => ⟨S8x1x256x256, .f32⟩
  | 48 => ⟨S8x64x256x256, .f32⟩
  | 49 => ⟨S8x64x256x256, .f32⟩
  | 50 => ⟨S8x64x256x256, .f32⟩
  | _ => ⟨S8x64x260x260, .f32⟩

abbrev hbmTy (i : Nat) : BufTy := match i / 128 with
  | 0 => hbmTy0_0 i
  | 1 => hbmTy0_1 i
  | _ => ⟨S8x64x260x260, .f32⟩

abbrev bufTy : (tb : Table) → Fin (tcTables nBuf tb) → BufTy
  | .hbm, ⟨i, _⟩ => hbmTy i
  | _, _ => ⟨S8x64x260x260, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩

abbrev nD : Nat := 1
abbrev τ : Topo := Topo.v7x

variable {F : FTy → Type} [FloatOps F]

class Facts₀ : Prop where
  bcast_S_S8x64x256x256 : S_.BroadcastsInDim S8x64x256x256 (![] : Fin 0 → Fin S8x64x256x256.rank)
  slices_S8x64x260x260_S8x64x256x256_0_0_0_0 : S8x64x260x260.Slices ![0, 0, 0, 0] S8x64x256x256
  slices_S8x25x256x256_S8x1x256x256_0_0_0_0 : S8x25x256x256.Slices ![0, 0, 0, 0] S8x1x256x256
  shapeCasts_S8x1x256x256_S8x256x256 : S8x1x256x256.ShapeCasts S8x256x256
  bcast_S8x256x256_S8x1x256x256_0_2_3 : S8x256x256.BroadcastsInDim S8x1x256x256 (![0, 2, 3] : Fin 3 → Fin S8x1x256x256.rank)
  bcast_S8x1x256x256_S8x64x256x256_0_1_2_3 : S8x1x256x256.BroadcastsInDim S8x64x256x256 (![0, 1, 2, 3] : Fin 4 → Fin S8x64x256x256.rank)
  slices_S8x64x260x260_S8x64x256x256_0_0_0_1 : S8x64x260x260.Slices ![0, 0, 0, 1] S8x64x256x256
  slices_S8x25x256x256_S8x1x256x256_0_1_0_0 : S8x25x256x256.Slices ![0, 1, 0, 0] S8x1x256x256
  slices_S8x64x260x260_S8x64x256x256_0_0_0_2 : S8x64x260x260.Slices ![0, 0, 0, 2] S8x64x256x256
  slices_S8x25x256x256_S8x1x256x256_0_2_0_0 : S8x25x256x256.Slices ![0, 2, 0, 0] S8x1x256x256
  slices_S8x64x260x260_S8x64x256x256_0_0_0_3 : S8x64x260x260.Slices ![0, 0, 0, 3] S8x64x256x256
  slices_S8x25x256x256_S8x1x256x256_0_3_0_0 : S8x25x256x256.Slices ![0, 3, 0, 0] S8x1x256x256
  slices_S8x64x260x260_S8x64x256x256_0_0_0_4 : S8x64x260x260.Slices ![0, 0, 0, 4] S8x64x256x256
  slices_S8x25x256x256_S8x1x256x256_0_4_0_0 : S8x25x256x256.Slices ![0, 4, 0, 0] S8x1x256x256
  slices_S8x64x260x260_S8x64x256x256_0_0_1_0 : S8x64x260x260.Slices ![0, 0, 1, 0] S8x64x256x256
  slices_S8x25x256x256_S8x1x256x256_0_5_0_0 : S8x25x256x256.Slices ![0, 5, 0, 0] S8x1x256x256
  slices_S8x64x260x260_S8x64x256x256_0_0_1_1 : S8x64x260x260.Slices ![0, 0, 1, 1] S8x64x256x256
  slices_S8x25x256x256_S8x1x256x256_0_6_0_0 : S8x25x256x256.Slices ![0, 6, 0, 0] S8x1x256x256
  slices_S8x64x260x260_S8x64x256x256_0_0_1_2 : S8x64x260x260.Slices ![0, 0, 1, 2] S8x64x256x256
  slices_S8x25x256x256_S8x1x256x256_0_7_0_0 : S8x25x256x256.Slices ![0, 7, 0, 0] S8x1x256x256
  slices_S8x64x260x260_S8x64x256x256_0_0_1_3 : S8x64x260x260.Slices ![0, 0, 1, 3] S8x64x256x256
  slices_S8x25x256x256_S8x1x256x256_0_8_0_0 : S8x25x256x256.Slices ![0, 8, 0, 0] S8x1x256x256
  slices_S8x64x260x260_S8x64x256x256_0_0_1_4 : S8x64x260x260.Slices ![0, 0, 1, 4] S8x64x256x256
  slices_S8x25x256x256_S8x1x256x256_0_9_0_0 : S8x25x256x256.Slices ![0, 9, 0, 0] S8x1x256x256
  slices_S8x64x260x260_S8x64x256x256_0_0_2_0 : S8x64x260x260.Slices ![0, 0, 2, 0] S8x64x256x256
  slices_S8x25x256x256_S8x1x256x256_0_10_0_0 : S8x25x256x256.Slices ![0, 10, 0, 0] S8x1x256x256
  slices_S8x64x260x260_S8x64x256x256_0_0_2_1 : S8x64x260x260.Slices ![0, 0, 2, 1] S8x64x256x256
  slices_S8x25x256x256_S8x1x256x256_0_11_0_0 : S8x25x256x256.Slices ![0, 11, 0, 0] S8x1x256x256
  slices_S8x64x260x260_S8x64x256x256_0_0_2_2 : S8x64x260x260.Slices ![0, 0, 2, 2] S8x64x256x256
  slices_S8x25x256x256_S8x1x256x256_0_12_0_0 : S8x25x256x256.Slices ![0, 12, 0, 0] S8x1x256x256
  slices_S8x64x260x260_S8x64x256x256_0_0_2_3 : S8x64x260x260.Slices ![0, 0, 2, 3] S8x64x256x256
  slices_S8x25x256x256_S8x1x256x256_0_13_0_0 : S8x25x256x256.Slices ![0, 13, 0, 0] S8x1x256x256
  slices_S8x64x260x260_S8x64x256x256_0_0_2_4 : S8x64x260x260.Slices ![0, 0, 2, 4] S8x64x256x256
  slices_S8x25x256x256_S8x1x256x256_0_14_0_0 : S8x25x256x256.Slices ![0, 14, 0, 0] S8x1x256x256
  slices_S8x64x260x260_S8x64x256x256_0_0_3_0 : S8x64x260x260.Slices ![0, 0, 3, 0] S8x64x256x256
  slices_S8x25x256x256_S8x1x256x256_0_15_0_0 : S8x25x256x256.Slices ![0, 15, 0, 0] S8x1x256x256
  slices_S8x64x260x260_S8x64x256x256_0_0_3_1 : S8x64x260x260.Slices ![0, 0, 3, 1] S8x64x256x256
  slices_S8x25x256x256_S8x1x256x256_0_16_0_0 : S8x25x256x256.Slices ![0, 16, 0, 0] S8x1x256x256
  slices_S8x64x260x260_S8x64x256x256_0_0_3_2 : S8x64x260x260.Slices ![0, 0, 3, 2] S8x64x256x256
  slices_S8x25x256x256_S8x1x256x256_0_17_0_0 : S8x25x256x256.Slices ![0, 17, 0, 0] S8x1x256x256
  slices_S8x64x260x260_S8x64x256x256_0_0_3_3 : S8x64x260x260.Slices ![0, 0, 3, 3] S8x64x256x256
  slices_S8x25x256x256_S8x1x256x256_0_18_0_0 : S8x25x256x256.Slices ![0, 18, 0, 0] S8x1x256x256
  slices_S8x64x260x260_S8x64x256x256_0_0_3_4 : S8x64x260x260.Slices ![0, 0, 3, 4] S8x64x256x256
  slices_S8x25x256x256_S8x1x256x256_0_19_0_0 : S8x25x256x256.Slices ![0, 19, 0, 0] S8x1x256x256
  slices_S8x64x260x260_S8x64x256x256_0_0_4_0 : S8x64x260x260.Slices ![0, 0, 4, 0] S8x64x256x256
  slices_S8x25x256x256_S8x1x256x256_0_20_0_0 : S8x25x256x256.Slices ![0, 20, 0, 0] S8x1x256x256
  slices_S8x64x260x260_S8x64x256x256_0_0_4_1 : S8x64x260x260.Slices ![0, 0, 4, 1] S8x64x256x256
  slices_S8x25x256x256_S8x1x256x256_0_21_0_0 : S8x25x256x256.Slices ![0, 21, 0, 0] S8x1x256x256
  slices_S8x64x260x260_S8x64x256x256_0_0_4_2 : S8x64x260x260.Slices ![0, 0, 4, 2] S8x64x256x256
  slices_S8x25x256x256_S8x1x256x256_0_22_0_0 : S8x25x256x256.Slices ![0, 22, 0, 0] S8x1x256x256
  slices_S8x64x260x260_S8x64x256x256_0_0_4_3 : S8x64x260x260.Slices ![0, 0, 4, 3] S8x64x256x256
  slices_S8x25x256x256_S8x1x256x256_0_23_0_0 : S8x25x256x256.Slices ![0, 23, 0, 0] S8x1x256x256
  slices_S8x64x260x260_S8x64x256x256_0_0_4_4 : S8x64x260x260.Slices ![0, 0, 4, 4] S8x64x256x256
  slices_S8x25x256x256_S8x1x256x256_0_24_0_0 : S8x25x256x256.Slices ![0, 24, 0, 0] S8x1x256x256

variable [Facts₀]

class Facts : Prop extends Facts₀ where

variable [Facts]
-- ==== Proof.KernelNest.lean ====
/-
  What one step of the blocked computation leaves in its output block, as a function of the two input blocks.

  A step holds one block x0 of the input ([1, 16, 260, 260]: 16 channels of one batch entry, with the halo) and one block
  x1 of the weights ([1, 25, 256, 256]: that batch entry's 25 weight planes). It goes through the 25 taps in order
  n = 0, …, 24, n = 5 di + dj: tap n reads the 256 x 256 window of x0 at spatial offset (di, dj) and weight plane n of x1,
  and combines them with what the output block holds so far — the first tap writes window * plane, every later tap
  writes (block so far) + window * plane. The printed body names each tap's arithmetic as one function of the values it
  loads (25 functions, one per store); this module only composes them in order. Nothing here depends on the float instance.
-/
import proofs.«151491_j79972291051911_2_alg».proof.Proof.Gen.KernelIdeal.Skeleton
import Idealize.ShloMosaic.Lib.Pipeline.FrameBody

noncomputable section

namespace Cert.KernelIdeal.Taps

open Cert.KernelIdeal Cert.KernelIdeal.Gen Idealize.ShloMosaic

variable {F : FTy → Type} [FloatOps F]

/-- The output block after all 25 taps: tap 24's arithmetic applied to its window, its weight plane and the block after
    tap 23, and so on down to tap 0, which has no earlier block to add to. -/
def block (x0 : Vec F S1x16x260x260 .f32) (x1 : Vec F S1x25x256x256 .f32) : Vec F S1x16x256x256 .f32 :=
  k0_pay1 (View.ld x0 (Rect.unit (s := S1x16x260x260) ![0, 0, 4, 4] S1x16x256x256.size inb_S1x16x260x260_S1x16x256x256_0_0_4_4)) (View.ld x1 (Rect.unit (s := S1x25x256x256) ![0, 24, 0, 0] S1x1x256x256.size inb_S1x25x256x256_S1x1x256x256_0_24_0_0))
    (k0_pay25 (View.ld x0 (Rect.unit (s := S1x16x260x260) ![0, 0, 4, 3] S1x16x256x256.size inb_S1x16x260x260_S1x16x256x256_0_0_4_3)) (View.ld x1 (Rect.unit (s := S1x25x256x256) ![0, 23, 0, 0] S1x1x256x256.size inb_S1x25x256x256_S1x1x256x256_0_23_0_0))
    (k0_pay24 (View.ld x0 (Rect.unit (s := S1x16x260x260) ![0, 0, 4, 2] S1x16x256x256.size inb_S1x16x260x260_S1x16x256x256_0_0_4_2)) (View.ld x1 (Rect.unit (s := S1x25x256x256) ![0, 22, 0, 0] S1x1x256x256.size inb_S1x25x256x256_S1x1x256x256_0_22_0_0))
    (k0_pay23 (View.ld x0 (Rect.unit (s := S1x16x260x260) ![0, 0, 4, 1] S1x16x256x256.size inb_S1x16x260x260_S1x16x256x256_0_0_4_1)) (View.ld x1 (Rect.unit (s := S1x25x256x256) ![0, 21, 0, 0] S1x1x256x256.size inb_S1x25x256x256_S1x1x256x256_0_21_0_0))
    (k0_pay22 (View.ld x0 (Rect.unit (s := S1x16x260x260) ![0, 0, 4, 0] S1x16x256x256.size inb_S1x16x260x260_S1x16x256x256_0_0_4_0)) (View.ld x1 (Rect.unit (s := S1x25x256x256) ![0, 20, 0, 0] S1x1x256x256.size inb_S1x25x256x256_S1x1x256x256_0_20_0_0))
    (k0_pay21 (View.ld x0 (Rect.unit (s := S1x16x260x260) ![0, 0, 3, 4] S1x16x256x256.size inb_S1x16x260x260_S1x16x256x256_0_0_3_4)) (View.ld x1 (Rect.unit (s := S1x25x256x256) ![0, 19, 0, 0] S1x1x256x256.size inb_S1x25x256x256_S1x1x256x256_0_19_0_0))
    (k0_pay20 (View.ld x0 (Rect.unit (s := S1x16x260x260) ![0, 0, 3, 3] S1x16x256x256.size inb_S1x16x260x260_S1x16x256x256_0_0_3_3)) (View.ld x1 (Rect.unit (s := S1x25x256x256) ![0, 18, 0, 0] S1x1x256x256.size inb_S1x25x256x256_S1x1x256x256_0_18_0_0))
    (k0_pay19 (View.ld x0 (Rect.unit (s := S1x16x260x260) ![0, 0, 3, 2] S1x16x256x256.size inb_S1x16x260x260_S1x16x256x256_0_0_3_2)) (View.ld x1 (Rect.unit (s := S1x25x256x256) ![0, 17, 0, 0] S1x1x256x256.size inb_S1x25x256x256_S1x1x256x256_0_17_0_0))
    (k0_pay18 (View.ld x0 (Rect.unit (s := S1x16x260x260) ![0, 0, 3, 1] S1x16x256x256.size inb_S1x16x260x260_S1x16x256x256_0_0_3_1)) (View.ld x1 (Rect.unit (s := S1x25x256x256) ![0, 16, 0, 0] S1x1x256x256.size inb_S1x25x256x256_S1x1x256x256_0_16_0_0))
    (k0_pay17 (View.ld x0 (Rect.unit (s := S1x16x260x260) ![0, 0, 3, 0] S1x16x256x256.size inb_S1x16x260x260_S1x16x256x256_0_0_3_0)) (View.ld x1 (Rect.unit (s := S1x25x256x256) ![0, 15, 0, 0] S1x1x256x256.size inb_S1x25x256x256_S1x1x256x256_0_15_0_0))
    (k0_pay16 (View.ld x0 (Rect.unit (s := S1x16x260x260) ![0, 0, 2, 4] S1x16x256x256.size inb_S1x16x260x260_S1x16x256x256_0_0_2_4)) (View.ld x1 (Rect.unit (s := S1x25x256x256) ![0, 14, 0, 0] S1x1x256x256.size inb_S1x25x256x256_S1x1x256x256_0_14_0_0))
    (k0_pay15 (View.ld x0 (Rect.unit (s := S1x16x260x260) ![0, 0, 2, 3] S1x16x256x256.size inb_S1x16x260x260_S1x16x256x256_0_0_2_3)) (View.ld x1 (Rect.unit (s := S1x25x256x256) ![0, 13, 0, 0] S1x1x256x256.size inb_S1x25x256x256_S1x1x256x256_0_13_0_0))
    (k0_pay14 (View.ld x0 (Rect.unit (s := S1x16x260x260) ![0, 0, 2, 2] S1x16x256x256.size inb_S1x16x260x260_S1x16x256x256_0_0_2_2)) (View.ld x1 (Rect.unit (s := S1x25x256x256) ![0, 12, 0, 0] S1x1x256x256.size inb_S1x25x256x256_S1x1x256x256_0_12_0_0))
    (k0_pay13 (View.ld x0 (Rect.unit (s := S1x16x260x260) ![0, 0, 2, 1] S1x16x256x256.size inb_S1x16x260x260_S1x16x256x256_0_0_2_1)) (View.ld x1 (Rect.unit (s := S1x25x256x256) ![0, 11, 0, 0] S1x1x256x256.size inb_S1x25x256x256_S1x1x256x256_0_11_0_0))
    (k0_pay12 (View.ld x0 (Rect.unit (s := S1x16x260x260) ![0, 0, 2, 0] S1x16x256x256.size inb_S1x16x260x260_S1x16x256x256_0_0_2_0)) (View.ld x1 (Rect.unit (s := S1x25x256x256) ![0, 10, 0, 0] S1x1x256x256.size inb_S1x25x256x256_S1x1x256x256_0_10_0_0))
    (k0_pay11 (View.ld x0 (Rect.unit (s := S1x16x260x260) ![0, 0, 1, 4] S1x16x256x256.size inb_S1x16x260x260_S1x16x256x256_0_0_1_4)) (View.ld x1 (Rect.unit (s := S1x25x256x256) ![0, 9, 0, 0] S1x1x256x256.size inb_S1x25x256x256_S1x1x256x256_0_9_0_0))
    (k0_pay10 (View.ld x0 (Rect.unit (s := S1x16x260x260) ![0, 0, 1, 3] S1x16x256x256.size inb_S1x16x260x260_S1x16x256x256_0_0_1_3)) (View.ld x1 (Rect.unit (s := S1x25x256x256) ![0, 8, 0, 0] S1x1x256x256.size inb_S1x25x256x256_S1x1x256x256_0_8_0_0))
    (k0_pay9 (View.ld x0 (Rect.unit (s := S1x16x260x260) ![0, 0, 1, 2] S1x16x256x256.size inb_S1x16x260x260_S1x16x256x256_0_0_1_2)) (View.ld x1 (Rect.unit (s := S1x25x256x256) ![0, 7, 0, 0] S1x1x256x256.size inb_S1x25x256x256_S1x1x256x256_0_7_0_0))
    (k0_pay8 (View.ld x0 (Rect.unit (s := S1x16x260x260) ![0, 0, 1, 1] S1x16x256x256.size inb_S1x16x260x260_S1x16x256x256_0_0_1_1)) (View.ld x1 (Rect.unit (s := S1x25x256x256) ![0, 6, 0, 0] S1x1x256x256.size inb_S1x25x256x256_S1x1x256x256_0_6_0_0))
    (k0_pay7 (View.ld x0 (Rect.unit (s := S1x16x260x260) ![0, 0, 1, 0] S1x16x256x256.size inb_S1x16x260x260_S1x16x256x256_0_0_1_0)) (View.ld x1 (Rect.unit (s := S1x25x256x256) ![0, 5, 0, 0] S1x1x256x256.size inb_S1x25x256x256_S1x1x256x256_0_5_0_0))
    (k0_pay6 (View.ld x0 (Rect.unit (s := S1x16x260x260) ![0, 0, 0, 4] S1x16x256x256.size inb_S1x16x260x260_S1x16x256x256_0_0_0_4)) (View.ld x1 (Rect.unit (s := S1x25x256x256) ![0, 4, 0, 0] S1x1x256x256.size inb_S1x25x256x256_S1x1x256x256_0_4_0_0))
    (k0_pay5 (View.ld x0 (Rect.unit (s := S1x16x260x260) ![0, 0, 0, 3] S1x16x256x256.size inb_S1x16x260x260_S1x16x256x256_0_0_0_3)) (View.ld x1 (Rect.unit (s := S1x25x256x256) ![0, 3, 0, 0] S1x1x256x256.size inb_S1x25x256x256_S1x1x256x256_0_3_0_0))
    (k0_pay4 (View.ld x0 (Rect.unit (s := S1x16x260x260) ![0, 0, 0, 2] S1x16x256x256.size inb_S1x16x260x260_S1x16x256x256_0_0_0_2)) (View.ld x1 (Rect.unit (s := S1x25x256x256) ![0, 2, 0, 0] S1x1x256x256.size inb_S1x25x256x256_S1x1x256x256_0_2_0_0))
    (k0_pay3 (View.ld x0 (Rect.unit (s := S1x16x260x260) ![0, 0, 0, 1] S1x16x256x256.size inb_S1x16x260x260_S1x16x256x256_0_0_0_1)) (View.ld x1 (Rect.unit (s := S1x25x256x256) ![0, 1, 0, 0] S1x1x256x256.size inb_S1x25x256x256_S1x1x256x256_0_1_0_0))
    (k0_pay2 (View.ld x0 (Rect.unit (s := S1x16x260x260) ![0, 0, 0, 0] S1x16x256x256.size inb_S1x16x260x260_S1x16x256x256_0_0_0_0)) (View.ld x1 (Rect.unit (s := S1x25x256x256) ![0, 0, 0, 0] S1x1x256x256.size inb_S1x25x256x256_S1x1x256x256_0_0_0_0))))))))))))))))))))))))))

end Cert.KernelIdeal.Taps

end
-- ==== Proof.LibCoverStore.lean ====
/-
  A general fact about reading a buffer back after it has been overwritten whole.

  A list of stores into a buffer of shape S is kept last store first. If the last store covered the whole buffer — its
  rectangle is the unit-stride rectangle of S's own sizes at zero offsets — then a load through that same rectangle reads
  exactly what that store wrote, whatever the earlier stores were: none of them shows through.
  (The library states this for a list of ONE store; an accumulator that is overwritten again and again needs it with
  earlier stores still in the list.)
-/
import Idealize.ShloMosaic.Lib.Pipeline.Value

noncomputable section

namespace Idealize.ShloMosaic.View

variable {Val : EltTy → Type} {S : Shape} {e : EltTy}

/-- A load through the whole-shape rectangle, after a list of stores whose LAST one went through that rectangle, reads that
    store's payload `w`; the earlier stores `L` are all overwritten. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, mem_set_unit_zero rfl inb y⟩),
    canon_cons_unit_zero rfl, ld_unit_zero rfl]

end Idealize.ShloMosaic.View

end
-- ==== Proof.KernelBlock.lean ====
/-
  The block a step of the blocked computation leaves IS the 25 taps composed in order.

  The step's body stores into its output block 25 times, every store through the whole block. What the block holds at the
  end is therefore the LAST store's value. That value was computed from a load of the block as the 24th store left it,
  which in turn is the 24th store's value, computed from the block as the 23rd store left it, and so on: each read-back of
  the block reads exactly the previous store's value, because that store covered the whole block. Unwinding the 25 levels
  gives the composition `Taps.block` of the 25 taps over the two input blocks. The loads of the input blocks are read
  through the staging buffers' whole contents, so they are windows of the blocks themselves.
-/
import proofs.«151491_j79972291051911_2_alg».proof.Proof.Gen.KernelIdeal.Frame
import proofs.«151491_j79972291051911_2_alg».proof.Proof.KernelNest
import proofs.«151491_j79972291051911_2_alg».proof.Proof.LibCoverStore
import Idealize.ShloMosaic.Lib.Tactic

set_option maxRecDepth 16384

noncomputable section

namespace Cert.KernelIdeal.Taps

open Cert.KernelIdeal Cert.KernelIdeal.Gen Idealize.ShloMosaic Idealize.ShloMosaic.TcCoe Idealize.ShloMosaic.Tactic Idealize.SL.Sem

variable {F : FTy → Type} [FloatOps F]

/-- The offsets of a store or load through a whole [1, 16, 256, 256] block are all zero. -/
theorem zero_offsets : (![0, 0, 0, 0] : Fin 4 → Nat) = fun _ => 0 := funext fun a => by fin_cases a <;> rfl

set_option maxHeartbeats 2000000 in
/-- On any staging buffers holding the input blocks `x0` and `x1`, the body leaves `block x0 x1` in the output block. -/
theorem out_eq (c : Dev nD) (i : grid0.Coords) (a2 : Memref sig .tc .vmem S1x16x260x260 .f32) (h2 : a2.IsWhole)
    (a3 : Memref sig .tc .vmem S1x25x256x256 .f32) (h3 : a3.IsWhole) (a4 : Memref sig .tc .vmem S1x16x256x256 .f32) (h4 : a4.IsWhole)
    (x0 : Vec F S1x16x260x260 .f32) (x1 : Vec F S1x25x256x256 .f32) :
    out0_A_2 (F := F) c i a2 h2 a3 h3 a4 h4 x0 x1 = block x0 x1 := by
  unfold out0_A_2
  rw [View.read_writes_eq_canon _ _ _ (cover0_A_2 c i a2 h2 a3 h3 a4 h4 x0 x1)]
  unfold kernelRun0_A
  dsimp only
  -- the last store covers the block: the block holds its value
  rw [View.canon_cons_unit_zero (S := S1x16x256x256) zero_offsets]
  -- each read-back of the block reads the previous store's value: 24 levels
  repeat (sl_unfold_words; simp only [View.readCov_cons_unit_zero (S := S1x16x256x256) _ zero_offsets])
  -- the input loads read windows of the blocks themselves
  simp only [View.readAt_eq_ld, h2.read_unread, h3.read_unread]
  rfl

end Cert.KernelIdeal.Taps

end
-- ==== Proof.Spec.lean ====
/-
  Per-pixel adaptive convolution as one function of its two argument arrays.

  The input x has shape [8, 64, 260, 260] (a 256 x 256 image with a halo of 4 on each spatial axis, per batch entry and
  channel) and the weights k have shape [8, 25, 256, 256] (25 tap weights per batch entry and pixel, shared by all channels).
  The output at (b, c, h, w) is

      the sum over di, dj in 0..4 of  x (b, c, h + di, w + dj) * k (b, 5 di + dj, h, w),

  the 25 products added left to right in tap order n = 5 di + dj. Over the extended reals the order of the additions is
  part of the statement (addition is not cancellative at the infinities), so it is fixed here once, in `taps25`, and both
  programs are shown to add in exactly this order.

  The same sum is stated twice: over the whole arrays (`conv`), and over one block of 16 channels of one batch entry
  (`convBlock`), which is what one step of the blocked computation produces.
-/
import Idealize.ShloMosaic.PureOps.Ideal
import Idealize.ShloMosaic.Lib.ValueIdx

noncomputable section

namespace AdaptiveConv

open Idealize.ShloMosaic Idealize.ShloMosaic.ValueIdx

/-- The 25 products added left to right in tap order: tap `5 di + dj` pairs the input value at window offset
    `(di, dj)` with weight number `5 di + dj`. -/
def taps25 (X : Fin 5 → Fin 5 → EReal) (K : Fin 25 → EReal) : EReal :=
  X 0 0 * K 0 + X 0 1 * K 1 + X 0 2 * K 2 + X 0 3 * K 3 + X 0 4 * K 4
  + X 1 0 * K 5 + X 1 1 * K 6 + X 1 2 * K 7 + X 1 3 * K 8 + X 1 4 * K 9
  + X 2 0 * K 10 + X 2 1 * K 11 + X 2 2 * K 12 + X 2 3 * K 13 + X 2 4 * K 14
  + X 3 0 * K 15 + X 3 1 * K 16 + X 3 2 * K 17 + X 3 3 * K 18 + X 3 4 * K 19
  + X 4 0 * K 20 + X 4 1 * K 21 + X 4 2 * K 22 + X 4 3 * K 23 + X 4 4 * K 24

/-- A pixel coordinate moved by a window offset: a coordinate of the haloed image. -/
def shift (h : Fin 256) (d : Fin 5) : Fin 260 := ⟨h.val + d.val, by have := h.isLt; have := d.isLt; omega⟩

theorem shift_val (h : Fin 256) (d : Fin 5) : (shift h d).val = h.val + d.val := rfl

/-! ## Over the whole arrays -/

abbrev SX : Shape := ⟨4, ![8, 64, 260, 260]⟩
abbrev SK : Shape := ⟨4, ![8, 25, 256, 256]⟩
abbrev SO : Shape := ⟨4, ![8, 64, 256, 256]⟩

/-- The output at batch entry `b`, channel `c`, pixel `(h, w)`. -/
def convAt (x : SX.Idx → EReal) (k : SK.Idx → EReal) (b : Fin 8) (c : Fin 64) (h w : Fin 256) : EReal :=
  taps25 (fun di dj => x (ix4 b c (shift h di) (shift w dj))) (fun n => k (ix4 b n h w))

/-- The whole output array. -/
def conv (x : SX.Idx → EReal) (k : SK.Idx → EReal) : SO.Idx → EReal :=
  fun i => convAt x k (i 0) (i 1) (i 2) (i 3)

theorem conv_ix4 (x : SX.Idx → EReal) (k : SK.Idx → EReal) (b : Fin 8) (c : Fin 64) (h w : Fin 256) :
    conv x k (ix4 b c h w) = convAt x k b c h w := rfl

/-! ## Over one block: 16 channels of one batch entry -/

abbrev BX : Shape := ⟨4, ![1, 16, 260, 260]⟩
abbrev BK : Shape := ⟨4, ![1, 25, 256, 256]⟩
abbrev BO : Shape := ⟨4, ![1, 16, 256, 256]⟩

/-- The block's output at channel `c` (of the block's 16) and pixel `(h, w)`. -/
def convBlockAt (x : BX.Idx → EReal) (k : BK.Idx → EReal) (c : Fin 16) (h w : Fin 256) : EReal :=
  taps25 (fun di dj => x (ix4 (0 : Fin 1) c (shift h di) (shift w dj))) (fun n => k (ix4 (0 : Fin 1) n h w))

/-- The block's whole output. -/
def convBlock (x : BX.Idx → EReal) (k : BK.Idx → EReal) : BO.Idx → EReal :=
  fun y => convBlockAt x k (y 1) (y 2) (y 3)

theorem convBlock_ix4 (x : BX.Idx → EReal) (k : BK.Idx → EReal) (u : Fin 1) (c : Fin 16) (h w : Fin 256) :
    convBlock x k (ix4 u c h w) = convBlockAt x k c h w := rfl

end AdaptiveConv

end
-- ==== Proof.BlockValue.lean ====
/-
  Over the extended reals, one step's output block is the 25-tap sum of its two input blocks.

  Each tap's arithmetic, read at channel c and pixel (h, w) of the block:
    * the first tap gives   window (c, h, w) * plane (h, w);
    * every later tap gives (block so far) (c, h, w) + window (c, h, w) * plane (h, w).
  The reshapes in between only drop or add the block's leading axis of length one, and the weight plane — one
  256 x 256 plane — is spread over the 16 channels, so it is read at (h, w) whatever c is. A window at spatial offset
  (di, dj) read at (c, h, w) is the input block at (c, h + di, w + dj); weight plane n read at (h, w) is the weight block at
  (n, h, w). Composing the 25 taps therefore gives, at (c, h, w), the products in tap order added left to right: the
  specification's `convBlock`. No law of arithmetic is used: the two sides are the same expression.
-/
import proofs.«151491_j79972291051911_2_alg».proof.Proof.Spec
import proofs.«151491_j79972291051911_2_alg».proof.Proof.KernelNest
import Idealize.ShloMosaic.PureOps.Ideal
import Idealize.ShloMosaic.Lib.Pipeline.Value
import Idealize.ShloMosaic.Lib.ValueIdx

set_option maxRecDepth 16384

noncomputable section

namespace Cert.KernelIdeal.Taps

open Cert.KernelIdeal Cert.KernelIdeal.Gen Idealize.ShloMosaic Idealize.ShloMosaic.ValueIdx AdaptiveConv

/-! ## The reshapes and the spreading of a weight plane, at an index -/

/-- A [1, 16, 256, 256] block seen as [16, 256, 256]: entry (c, h, w) is the block's (0, c, h, w). -/
theorem squeeze_apply (v : Vec Ideal S1x16x256x256 .f32) (c : Fin 16) (h w : Fin 256) :
    shapeCast S16x256x256 v shapeCasts_S1x16x256x256_S16x256x256 (ix3 c h w) = v (ix4 (0 : Fin 1) c h w) := by
  refine shapeCast_apply v _ (ix3 c h w) (ix4 (0 : Fin 1) c h w) ?_
  rw [Shape.rowMajor_val_four, Shape.rowMajor_val_three]
  show ((0 * 16 + c.val) * 256 + h.val) * 256 + w.val = (c.val * 256 + h.val) * 256 + w.val
  omega

/-- A [16, 256, 256] value seen as a [1, 16, 256, 256] block: entry (0, c, h, w) is the value's (c, h, w). -/
theorem unsqueeze_apply (v : FVec Ideal S16x256x256 .f32) (c : Fin 16) (h w : Fin 256) :
    shapeCast S1x16x256x256 v shapeCasts_S16x256x256_S1x16x256x256 (ix4 (0 : Fin 1) c h w) = v (ix3 c h w) := by
  refine shapeCast_apply v _ (ix4 (0 : Fin 1) c h w) (ix3 c h w) ?_
  rw [Shape.rowMajor_val_four, Shape.rowMajor_val_three]
  show (c.val * 256 + h.val) * 256 + w.val = ((0 * 16 + c.val) * 256 + h.val) * 256 + w.val
  omega

/-- One weight plane, loaded as [1, 1, 256, 256], seen as [256, 256], then [1, 256, 256], then spread over the 16 channels:
    entry (c, h, w) is the plane's (0, 0, h, w), whatever c. -/
theorem plane_spread_apply (q : Vec Ideal S1x1x256x256 .f32) (c : Fin 16) (h w : Fin 256) :
    broadcastTo S16x256x256 (shapeCast S1x256x256 (shapeCast S256x256 q shapeCasts_S1x1x256x256_S256x256) shapeCasts_S256x256_S1x256x256)
      broadcasts_S1x256x256_S16x256x256 (ix3 c h w) = q (ix4 (0 : Fin 1) (0 : Fin 1) h w) := by
  refine (broadcastTo_apply _ _ (ix3 c h w) (ix3 (0 : Fin 1) h w) (fun a => ?_)).trans ?_
  · match a with
    | ⟨0, _⟩ => rfl
    | ⟨1, _⟩ => rfl
    | ⟨2, _⟩ => rfl
  refine (shapeCast_apply _ _ (ix3 (0 : Fin 1) h w) (ix2 h w) ?_).trans ?_
  · rw [Shape.rowMajor_val_two, Shape.rowMajor_val_three]
    show h.val * 256 + w.val = ((0 * 256) + h.val) * 256 + w.val
    omega
  refine shapeCast_apply q _ (ix2 h w) (ix4 (0 : Fin 1) (0 : Fin 1) h w) ?_
  rw [Shape.rowMajor_val_four, Shape.rowMajor_val_two]
  show ((0 * 1 + 0) * 256 + h.val) * 256 + w.val = h.val * 256 + w.val
  omega

/-! ## One tap's arithmetic at an index -/

/-- The first tap: window times plane. -/
theorem tap0_apply (p : Vec Ideal S1x16x256x256 .f32) (q : Vec Ideal S1x1x256x256 .f32) (c : Fin 16) (h w : Fin 256) :
    k0_pay2 p q (ix4 (0 : Fin 1) c h w) = p (ix4 (0 : Fin 1) c h w) * q (ix4 (0 : Fin 1) (0 : Fin 1) h w) := by
  unfold k0_pay2
  refine (unsqueeze_apply _ c h w).trans ?_
  rw [mulf_apply, squeeze_apply, plane_spread_apply]

/-- A later tap: the block so far plus window times plane. -/
theorem later_apply (p : Vec Ideal S1x16x256x256 .f32) (q : Vec Ideal S1x1x256x256 .f32) (r : Vec Ideal S1x16x256x256 .f32)
    (c : Fin 16) (h w : Fin 256) :
    k0_pay3 p q r (ix4 (0 : Fin 1) c h w) = r (ix4 (0 : Fin 1) c h w) + p (ix4 (0 : Fin 1) c h w) * q (ix4 (0 : Fin 1) (0 : Fin 1) h w) := by
  unfold k0_pay3
  refine (unsqueeze_apply _ c h w).trans ?_
  rw [addf_apply, mulf_apply, squeeze_apply, squeeze_apply, plane_spread_apply]

/-! Every later tap's arithmetic is the same function of its three inputs. -/

theorem tap1_apply (p : Vec Ideal S1x16x256x256 .f32) (q : Vec Ideal S1x1x256x256 .f32) (r : Vec Ideal S1x16x256x256 .f32)
    (c : Fin 16) (h w : Fin 256) :
    k0_pay3 p q r (ix4 (0 : Fin 1) c h w) = r (ix4 (0 : Fin 1) c h w) + p (ix4 (0 : Fin 1) c h w) * q (ix4 (0 : Fin 1) (0 : Fin 1) h w) :=
  later_apply p q r c h w

theorem tap2_apply (p : Vec Ideal S1x16x256x256 .f32) (q : Vec Ideal S1x1x256x256 .f32) (r : Vec Ideal S1x16x256x256 .f32)
    (c : Fin 16) (h w : Fin 256) :
    k0_pay4 p q r (ix4 (0 : Fin 1) c h w) = r (ix4 (0 : Fin 1) c h w) + p (ix4 (0 : Fin 1) c h w) * q (ix4 (0 : Fin 1) (0 : Fin 1) h w) :=
  later_apply p q r c h w

theorem tap3_apply (p : Vec Ideal S1x16x256x256 .f32) (q : Vec Ideal S1x1x256x256 .f32) (r : Vec Ideal S1x16x256x256 .f32)
    (c : Fin 16) (h w : Fin 256) :
    k0_pay5 p q r (ix4 (0 : Fin 1) c h w) = r (ix4 (0 : Fin 1) c h w) + p (ix4 (0 : Fin 1) c h w) * q (ix4 (0 : Fin 1) (0 : Fin 1) h w) :=
  later_apply p q r c h w

theorem tap4_apply (p : Vec Ideal S1x16x256x256 .f32) (q : Vec Ideal S1x1x256x256 .f32) (r : Vec Ideal S1x16x256x256 .f32)
    (c : Fin 16) (h w : Fin 256) :
    k0_pay6 p q r (ix4 (0 : Fin 1) c h w) = r (ix4 (0 : Fin 1) c h w) + p (ix4 (0 : Fin 1) c h w) * q (ix4 (0 : Fin 1) (0 : Fin 1) h w) :=
  later_apply p q r c h w

theorem tap5_apply (p : Vec Ideal S1x16x256x256 .f32) (q : Vec Ideal S1x1x256x256 .f32) (r : Vec Ideal S1x16x256x256 .f32)
    (c : Fin 16) (h w : Fin 256) :
    k0_pay7 p q r (ix4 (0 : Fin 1) c h w) = r (ix4 (0 : Fin 1) c h w) + p (ix4 (0 : Fin 1) c h w) * q (ix4 (0 : Fin 1) (0 : Fin 1) h w) :=
  later_apply p q r c h w

theorem tap6_apply (p : Vec Ideal S1x16x256x256 .f32) (q : Vec Ideal S1x1x256x256 .f32) (r : Vec Ideal S1x16x256x256 .f32)
    (c : Fin 16) (h w : Fin 256) :
    k0_pay8 p q r (ix4 (0 : Fin 1) c h w) = r (ix4 (0 : Fin 1) c h w) + p (ix4 (0 : Fin 1) c h w) * q (ix4 (0 : Fin 1) (0 : Fin 1) h w) :=
  later_apply p q r c h w

theorem tap7_apply (p : Vec Ideal S1x16x256x256 .f32) (q : Vec Ideal S1x1x256x256 .f32) (r : Vec Ideal S1x16x256x256 .f32)
    (c : Fin 16) (h w : Fin 256) :
    k0_pay9 p q r (ix4 (0 : Fin 1) c h w) = r (ix4 (0 : Fin 1) c h w) + p (ix4 (0 : Fin 1) c h w) * q (ix4 (0 : Fin 1) (0 : Fin 1) h w) :=
  later_apply p q r c h w

theorem tap8_apply (p : Vec Ideal S1x16x256x256 .f32) (q : Vec Ideal S1x1x256x256 .f32) (r : Vec Ideal S1x16x256x256 .f32)
    (c : Fin 16) (h w : Fin 256) :
    k0_pay10 p q r (ix4 (0 : Fin 1) c h w) = r (ix4 (0 : Fin 1) c h w) + p (ix4 (0 : Fin 1) c h w) * q (ix4 (0 : Fin 1) (0 : Fin 1) h w) :=
  later_apply p q r c h w

theorem tap9_apply (p : Vec Ideal S1x16x256x256 .f32) (q : Vec Ideal S1x1x256x256 .f32) (r : Vec Ideal S1x16x256x256 .f32)
    (c : Fin 16) (h w : Fin 256) :
    k0_pay11 p q r (ix4 (0 : Fin 1) c h w) = r (ix4 (0 : Fin 1) c h w) + p (ix4 (0 : Fin 1) c h w) * q (ix4 (0 : Fin 1) (0 : Fin 1) h w) :=
  later_apply p q r c h w

theorem tap10_apply (p : Vec Ideal S1x16x256x256 .f32) (q : Vec Ideal S1x1x256x256 .f32) (r : Vec Ideal S1x16x256x256 .f32)
    (c : Fin 16) (h w : Fin 256) :
    k0_pay12 p q r (ix4 (0 : Fin 1) c h w) = r (ix4 (0 : Fin 1) c h w) + p (ix4 (0 : Fin 1) c h w) * q (ix4 (0 : Fin 1) (0 : Fin 1) h w) :=
  later_apply p q r c h w

theorem tap11_apply (p : Vec Ideal S1x16x256x256 .f32) (q : Vec Ideal S1x1x256x256 .f32) (r : Vec Ideal S1x16x256x256 .f32)
    (c : Fin 16) (h w : Fin 256) :
    k0_pay13 p q r (ix4 (0 : Fin 1) c h w) = r (ix4 (0 : Fin 1) c h w) + p (ix4 (0 : Fin 1) c h w) * q (ix4 (0 : Fin 1) (0 : Fin 1) h w) :=
  later_apply p q r c h w

theorem tap12_apply (p : Vec Ideal S1x16x256x256 .f32) (q : Vec Ideal S1x1x256x256 .f32) (r : Vec Ideal S1x16x256x256 .f32)
    (c : Fin 16) (h w : Fin 256) :
    k0_pay14 p q r (ix4 (0 : Fin 1) c h w) = r (ix4 (0 : Fin 1) c h w) + p (ix4 (0 : Fin 1) c h w) * q (ix4 (0 : Fin 1) (0 : Fin 1) h w) :=
  later_apply p q r c h w

theorem tap13_apply (p : Vec Ideal S1x16x256x256 .f32) (q : Vec Ideal S1x1x256x256 .f32) (r : Vec Ideal S1x16x256x256 .f32)
    (c : Fin 16) (h w : Fin 256) :
    k0_pay15 p q r (ix4 (0 : Fin 1) c h w) = r (ix4 (0 : Fin 1) c h w) + p (ix4 (0 : Fin 1) c h w) * q (ix4 (0 : Fin 1) (0 : Fin 1) h w) :=
  later_apply p q r c h w

theorem tap14_apply (p : Vec Ideal S1x16x256x256 .f32) (q : Vec Ideal S1x1x256x256 .f32) (r : Vec Ideal S1x16x256x256 .f32)
    (c : Fin 16) (h w : Fin 256) :
    k0_pay16 p q r (ix4 (0 : Fin 1) c h w) = r (ix4 (0 : Fin 1) c h w) + p (ix4 (0 : Fin 1) c h w) * q (ix4 (0 : Fin 1) (0 : Fin 1) h w) :=
  later_apply p q r c h w

theorem tap15_apply (p : Vec Ideal S1x16x256x256 .f32) (q : Vec Ideal S1x1x256x256 .f32) (r : Vec Ideal S1x16x256x256 .f32)
    (c : Fin 16) (h w : Fin 256) :
    k0_pay17 p q r (ix4 (0 : Fin 1) c h w) = r (ix4 (0 : Fin 1) c h w) + p (ix4 (0 : Fin 1) c h w) * q (ix4 (0 : Fin 1) (0 : Fin 1) h w) :=
  later_apply p q r c h w

theorem tap16_apply (p : Vec Ideal S1x16x256x256 .f32) (q : Vec Ideal S1x1x256x256 .f32) (r : Vec Ideal S1x16x256x256 .f32)
    (c : Fin 16) (h w : Fin 256) :
    k0_pay18 p q r (ix4 (0 : Fin 1) c h w) = r (ix4 (0 : Fin 1) c h w) + p (ix4 (0 : Fin 1) c h w) * q (ix4 (0 : Fin 1) (0 : Fin 1) h w) :=
  later_apply p q r c h w

theorem tap17_apply (p : Vec Ideal S1x16x256x256 .f32) (q : Vec Ideal S1x1x256x256 .f32) (r : Vec Ideal S1x16x256x256 .f32)
    (c : Fin 16) (h w : Fin 256) :
    k0_pay19 p q r (ix4 (0 : Fin 1) c h w) = r (ix4 (0 : Fin 1) c h w) + p (ix4 (0 : Fin 1) c h w) * q (ix4 (0 : Fin 1) (0 : Fin 1) h w) :=
  later_apply p q r c h w

theorem tap18_apply (p : Vec Ideal S1x16x256x256 .f32) (q : Vec Ideal S1x1x256x256 .f32) (r : Vec Ideal S1x16x256x256 .f32)
    (c : Fin 16) (h w : Fin 256) :
    k0_pay20 p q r (ix4 (0 : Fin 1) c h w) = r (ix4 (0 : Fin 1) c h w) + p (ix4 (0 : Fin 1) c h w) * q (ix4 (0 : Fin 1) (0 : Fin 1) h w) :=
  later_apply p q r c h w

theorem tap19_apply (p : Vec Ideal S1x16x256x256 .f32) (q : Vec Ideal S1x1x256x256 .f32) (r : Vec Ideal S1x16x256x256 .f32)
    (c : Fin 16) (h w : Fin 256) :
    k0_pay21 p q r (ix4 (0 : Fin 1) c h w) = r (ix4 (0 : Fin 1) c h w) + p (ix4 (0 : Fin 1) c h w) * q (ix4 (0 : Fin 1) (0 : Fin 1) h w) :=
  later_apply p q r c h w

theorem tap20_apply (p : Vec Ideal S1x16x256x256 .f32) (q : Vec Ideal S1x1x256x256 .f32) (r : Vec Ideal S1x16x256x256 .f32)
    (c : Fin 16) (h w : Fin 256) :
    k0_pay22 p q r (ix4 (0 : Fin 1) c h w) = r (ix4 (0 : Fin 1) c h w) + p (ix4 (0 : Fin 1) c h w) * q (ix4 (0 : Fin 1) (0 : Fin 1) h w) :=
  later_apply p q r c h w

theorem tap21_apply (p : Vec Ideal S1x16x256x256 .f32) (q : Vec Ideal S1x1x256x256 .f32) (r : Vec Ideal S1x16x256x256 .f32)
    (c : Fin 16) (h w : Fin 256) :
    k0_pay23 p q r (ix4 (0 : Fin 1) c h w) = r (ix4 (0 : Fin 1) c h w) + p (ix4 (0 : Fin 1) c h w) * q (ix4 (0 : Fin 1) (0 : Fin 1) h w) :=
  later_apply p q r c h w

theorem tap22_apply (p : Vec Ideal S1x16x256x256 .f32) (q : Vec Ideal S1x1x256x256 .f32) (r : Vec Ideal S1x16x256x256 .f32)
    (c : Fin 16) (h w : Fin 256) :
    k0_pay24 p q r (ix4 (0 : Fin 1) c h w) = r (ix4 (0 : Fin 1) c h w) + p (ix4 (0 : Fin 1) c h w) * q (ix4 (0 : Fin 1) (0 : Fin 1) h w) :=
  later_apply p q r c h w

theorem tap23_apply (p : Vec Ideal S1x16x256x256 .f32) (q : Vec Ideal S1x1x256x256 .f32) (r : Vec Ideal S1x16x256x256 .f32)
    (c : Fin 16) (h w : Fin 256) :
    k0_pay25 p q r (ix4 (0 : Fin 1) c h w) = r (ix4 (0 : Fin 1) c h w) + p (ix4 (0 : Fin 1) c h w) * q (ix4 (0 : Fin 1) (0 : Fin 1) h w) :=
  later_apply p q r c h w

theorem tap24_apply (p : Vec Ideal S1x16x256x256 .f32) (q : Vec Ideal S1x1x256x256 .f32) (r : Vec Ideal S1x16x256x256 .f32)
    (c : Fin 16) (h w : Fin 256) :
    k0_pay1 p q r (ix4 (0 : Fin 1) c h w) = r (ix4 (0 : Fin 1) c h w) + p (ix4 (0 : Fin 1) c h w) * q (ix4 (0 : Fin 1) (0 : Fin 1) h w) :=
  later_apply p q r c h w

/-! ## The loads of the input blocks at an index -/

/-- The window of the input block at spatial offset (di, dj), read at (0, c, h, w), is the block at (0, c, h + di, w + dj). -/
theorem window_apply (x0 : Vec Ideal S1x16x260x260 .f32) (di dj : Nat) (hdi : di < 5) (hdj : dj < 5)
    (inb : ∀ a, (![0, 0, di, dj] : Fin 4 → Nat) a + S1x16x256x256.size a ≤ S1x16x260x260.size a) (c : Fin 16) (h w : Fin 256) :
    View.ld x0 (Rect.unit (s := S1x16x260x260) ![0, 0, di, dj] S1x16x256x256.size inb) (ix4 (0 : Fin 1) c h w)
      = x0 (ix4 (0 : Fin 1) c (shift h ⟨di, hdi⟩) (shift w ⟨dj, hdj⟩)) := by
  show x0 _ = x0 _
  refine congrArg x0 (funext fun a => Fin.ext ?_)
  match a with
  | ⟨0, _⟩ => rfl
  | ⟨1, _⟩ => show 0 + 1 * c.val = c.val; omega
  | ⟨2, _⟩ => show di + 1 * h.val = h.val + di; omega
  | ⟨3, _⟩ => show dj + 1 * w.val = w.val + dj; omega

/-- Weight plane n of the weight block, read at (0, 0, h, w), is the block at (0, n, h, w). -/
theorem plane_apply (x1 : Vec Ideal S1x25x256x256 .f32) (n : Nat) (hn : n < 25)
    (inb : ∀ a, (![0, n, 0, 0] : Fin 4 → Nat) a + S1x1x256x256.size a ≤ S1x25x256x256.size a) (h w : Fin 256) :
    View.ld x1 (Rect.unit (s := S1x25x256x256) ![0, n, 0, 0] S1x1x256x256.size inb) (ix4 (0 : Fin 1) (0 : Fin 1) h w)
      = x1 (ix4 (0 : Fin 1) (⟨n, hn⟩ : Fin 25) h w) := by
  show x1 _ = x1 _
  refine congrArg x1 (funext fun a => Fin.ext ?_)
  match a with
  | ⟨0, _⟩ => rfl
  | ⟨1, _⟩ => show n + 1 * 0 = n; omega
  | ⟨2, _⟩ => show 0 + 1 * h.val = h.val; omega
  | ⟨3, _⟩ => show 0 + 1 * w.val = w.val; omega

/-! ## The block -/

/-- Over the extended reals the step's output block is the 25-tap sum of its input blocks. -/
theorem block_eq_convBlock (x0 : Vec Ideal S1x16x260x260 .f32) (x1 : Vec Ideal S1x25x256x256 .f32) :
    block (F := Ideal) x0 x1 = convBlock x0 x1 := by
  funext y
  obtain ⟨u, c, h, w, rfl⟩ : ∃ (u : Fin 1) (c : Fin 16) (h w : Fin 256), y = ix4 u c h w :=
    ⟨y 0, y 1, y 2, y 3, eq_ix4 y⟩
  obtain rfl : u = 0 := Subsingleton.elim _ _
  rw [convBlock_ix4]
  unfold block
  rw [tap24_apply, tap23_apply, tap22_apply, tap21_apply, tap20_apply, tap19_apply, tap18_apply, tap17_apply,
    tap16_apply, tap15_apply, tap14_apply, tap13_apply, tap12_apply, tap11_apply, tap10_apply, tap9_apply,
    tap8_apply, tap7_apply, tap6_apply, tap5_apply, tap4_apply, tap3_apply, tap2_apply, tap1_apply,
    tap0_apply]
  rw [window_apply x0 4 4 (by decide) (by decide), window_apply x0 4 3 (by decide) (by decide), window_apply x0 4 2 (by decide) (by decide), window_apply x0 4 1 (by decide) (by decide),
    window_apply x0 4 0 (by decide) (by decide), window_apply x0 3 4 (by decide) (by decide), window_apply x0 3 3 (by decide) (by decide), window_apply x0 3 2 (by decide) (by decide),
    window_apply x0 3 1 (by decide) (by decide), window_apply x0 3 0 (by decide) (by decide), window_apply x0 2 4 (by decide) (by decide), window_apply x0 2 3 (by decide) (by decide),
    window_apply x0 2 2 (by decide) (by decide), window_apply x0 2 1 (by decide) (by decide), window_apply x0 2 0 (by decide) (by decide), window_apply x0 1 4 (by decide) (by decide),
    window_apply x0 1 3 (by decide) (by decide), window_apply x0 1 2 (by decide) (by decide), window_apply x0 1 1 (by decide) (by decide), window_apply x0 1 0 (by decide) (by decide),
    window_apply x0 0 4 (by decide) (by decide), window_apply x0 0 3 (by decide) (by decide), window_apply x0 0 2 (by decide) (by decide), window_apply x0 0 1 (by decide) (by decide),
    window_apply x0 0 0 (by decide) (by decide)]
  rw [plane_apply x1 24 (by decide), plane_apply x1 23 (by decide), plane_apply x1 22 (by decide), plane_apply x1 21 (by decide), plane_apply x1 20 (by decide),
    plane_apply x1 19 (by decide), plane_apply x1 18 (by decide), plane_apply x1 17 (by decide), plane_apply x1 16 (by decide), plane_apply x1 15 (by decide),
    plane_apply x1 14 (by decide), plane_apply x1 13 (by decide), plane_apply x1 12 (by decide), plane_apply x1 11 (by decide), plane_apply x1 10 (by decide),
    plane_apply x1 9 (by decide), plane_apply x1 8 (by decide), plane_apply x1 7 (by decide), plane_apply x1 6 (by decide), plane_apply x1 5 (by decide),
    plane_apply x1 4 (by decide), plane_apply x1 3 (by decide), plane_apply x1 2 (by decide), plane_apply x1 1 (by decide), plane_apply x1 0 (by decide)]
  rfl

end Cert.KernelIdeal.Taps

end
-- ==== Proof.SpecBlock.lean ====
/-
  A block of the arrays gives the matching block of the output.

  If an input block holds, at channel c of the block and every haloed position near (h, w), what the whole input holds at
  batch entry b, channel C and the same positions near (h', w'), and the weight block holds at (n, h, w) what the whole
  weights hold at (b, n, h', w'), then the block's 25-tap sum at (c, h, w) is the whole arrays' 25-tap sum at (b, C, h', w'):
  the two sums are the same expression of equal values.
-/
import proofs.«151491_j79972291051911_2_alg».proof.Proof.Spec

noncomputable section

namespace AdaptiveConv

open Idealize.ShloMosaic Idealize.ShloMosaic.ValueIdx

theorem convBlockAt_eq_convAt (X : SX.Idx → EReal) (Kw : SK.Idx → EReal) (x0 : BX.Idx → EReal) (x1 : BK.Idx → EReal)
    (b : Fin 8) (C : Fin 64) (c : Fin 16) (h w h' w' : Fin 256)
    (hx0 : ∀ di dj : Fin 5, x0 (ix4 (0 : Fin 1) c (shift h di) (shift w dj)) = X (ix4 b C (shift h' di) (shift w' dj)))
    (hx1 : ∀ n : Fin 25, x1 (ix4 (0 : Fin 1) n h w) = Kw (ix4 b n h' w')) :
    convBlockAt x0 x1 c h w = convAt X Kw b C h' w' := by
  unfold convBlockAt convAt
  exact congrArg₂ taps25 (funext fun di => funext fun dj => hx0 di dj) (funext fun n => hx1 n)

end AdaptiveConv

end
-- ==== Proof.KernelValue.lean ====
/-
  From the blocks to the whole output array.

  The blocked computation runs over a grid of 8 x 4 points: point (b, q) works on batch entry b and channels 16 q to 16 q + 15.
  It is handed block (b, q) of the input — all 260 x 260 haloed positions of those 16 channels — and block b of the weights —
  all 25 planes of that batch entry —, and what it writes back goes to block (b, q) of the output: 16 channels, all
  256 x 256 pixels. So at every point the two input blocks are the whole arrays read at the positions the output block
  stands for, the block it writes back is the specification's output array read through the output block, and since the
  32 output blocks cover the output array (the block holding (b, C, h, w) is the one of point (b, C / 16)), the output
  array ends holding the specification's function of the two argument arrays.
-/
import proofs.«151491_j79972291051911_2_alg».proof.Proof.Gen.KernelIdeal.Value
import proofs.«151491_j79972291051911_2_alg».proof.Proof.KernelBlock
import proofs.«151491_j79972291051911_2_alg».proof.Proof.BlockValue
import proofs.«151491_j79972291051911_2_alg».proof.Proof.SpecBlock

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx AdaptiveConv
open Idealize.ShloMosaic.Pipeline (Dat)

variable (m : (ℓ : Loc nD τ sig) → Buf (Elt Ideal) ℓ) (ρ : Dev nD → PrngReg)

/-- How the three windows' block indices move over the grid, decided over its 32 points: the input's block index follows
    the output's on the batch and channel axes and is 0 on the two spatial axes; the weights' follows the output's on the
    batch axis and is 0 elsewhere; the output's is 0 on the spatial axes, at most 7 on the batch axis and at most 3 on the
    channel axis. -/
theorem index_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 7 ∧ win0_2.index t (1 : Fin 4) ≤ 3 :=
  (by decide +kernel : ∀ t : Fin grid0.N, _)

/-- Every output block (batch entry q0, channel group q1) is some grid point's. -/
theorem index_onto : ∀ (q0 : Fin 8) (q1 : Fin 4), ∃ t : Fin cfg0.N, win0_2.index t = ![q0.val, q1.val, 0, 0] :=
  (by decide +kernel : ∀ (q0 : Fin 8) (q1 : Fin 4), ∃ t : Fin grid0.N, win0_2.index t = ![q0.val, q1.val, 0, 0])

/-- What point `t` writes back is the specification's output array read through point `t`'s output block. -/
theorem flushed_eq (c : Dev nD) (t : Fin cfg0.N) :
    (dats m 0 c).flushed 2 t
      = ((cfg0.win 2).blk t).view.read (Elt Ideal) (conv (V m c main_arg0) (V m c main_arg1)) := by
  rw [Cert.KernelIdeal.Value.flushed2_A, Taps.out_eq, Taps.block_eq_convBlock]
  obtain ⟨e0, e1, e2, e3, f0, f1, f2, f3, g2, g3, -, -⟩ := index_facts t
  funext y
  show convBlockAt (iblk m c 0 t) (iblk m c 1 t) (y 1) (y 2) (y 3)
      = convAt (V m c main_arg0) (V m c main_arg1) ((((cfg0.win 2).blk t).view.emb y) 0) ((((cfg0.win 2).blk t).view.emb y) 1)
          ((((cfg0.win 2).blk t).view.emb y) 2) ((((cfg0.win 2).blk t).view.emb y) 3)
  refine convBlockAt_eq_convAt (V m c main_arg0) (V m c main_arg1) (iblk m c 0 t) (iblk m c 1 t)
    ((((cfg0.win 2).blk t).view.emb y) 0) ((((cfg0.win 2).blk t).view.emb y) 1) (y 1) (y 2) (y 3)
    ((((cfg0.win 2).blk t).view.emb y) 2) ((((cfg0.win 2).blk t).view.emb y) 3) (fun di dj => ?_) (fun n => ?_)
  · -- the input block at (0, c, h + di, w + dj) is the input array at the output position moved by (di, dj)
    show V m c main_arg0 (((cfg0.win 0).blk t).view.emb (ix4 (0 : Fin 1) (y 1) (shift (y 2) di) (shift (y 3) dj))) = V m c main_arg0 _
    refine congrArg (V m c main_arg0) (funext fun a => Fin.ext ?_)
    have hy0 : (y 0).val < 1 := (y 0).isLt
    match a with
    | ⟨0, _⟩ => show win0_0.index t (0 : Fin 4) * 1 + 1 * 0 = win0_2.index t (0 : Fin 4) * 1 + 1 * (y 0).val; omega
    | ⟨1, _⟩ => show win0_0.index t (1 : Fin 4) * 16 + 1 * (y 1).val = win0_2.index t (1 : Fin 4) * 16 + 1 * (y 1).val; omega
    | ⟨2, _⟩ => show win0_0.index t (2 : Fin 4) * 260 + 1 * ((y 2).val + di.val) = (win0_2.index t (2 : Fin 4) * 256 + 1 * (y 2).val) + di.val; omega
    | ⟨3, _⟩ => show win0_0.index t (3 : Fin 4) * 260 + 1 * ((y 3).val + dj.val) = (win0_2.index t (3 : Fin 4) * 256 + 1 * (y 3).val) + dj.val; omega
  · -- the weight block at (0, n, h, w) is the weights array at (batch entry, n, h, w)
    show V m c main_arg1 (((cfg0.win 1).blk t).view.emb (ix4 (0 : Fin 1) n (y 2) (y 3))) = V m c main_arg1 _
    refine congrArg (V m c main_arg1) (funext fun a => Fin.ext ?_)
    have hy0 : (y 0).val < 1 := (y 0).isLt
    match a with
    | ⟨0, _⟩ => show win0_1.index t (0 : Fin 4) * 1 + 1 * 0 = win0_2.index t (0 : Fin 4) * 1 + 1 * (y 0).val; omega
    | ⟨1, _⟩ => show win0_1.index t (1 : Fin 4) * 25 + 1 * n.val = n.val; omega
    | ⟨2, _⟩ => show win0_1.index t (2 : Fin 4) * 256 + 1 * (y 2).val = win0_2.index t (2 : Fin 4) * 256 + 1 * (y 2).val; omega
    | ⟨3, _⟩ => show win0_1.index t (3 : Fin 4) * 256 + 1 * (y 3).val = win0_2.index t (3 : Fin 4) * 256 + 1 * (y 3).val; omega

/-- An index of the output array is in point `t`'s block iff each coordinate is in the block's range on its axis. -/
theorem mem_block (t : Fin cfg0.N) (i : S8x64x256x256.Idx) :
    i ∈ ((cfg0.win 2).blk t).view.set ↔ ∀ a : Fin 4, win0_2.index t a * S1x16x256x256.size a ≤ (i a).val
      ∧ (i a).val < win0_2.index t a * S1x16x256x256.size a + S1x16x256x256.size a := by
  show i ∈ ((View.whole main_v0).slice (win0_2.rect t)).set ↔ _
  rw [View.set_slice_whole, Rect.mem_set_unit]
  exact Iff.rfl

/-- The 32 output blocks cover the output array: (b, C, h, w) lies in the block of point (b, C / 16). -/
theorem covered (i : S8x64x256x256.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 256 := (i 2).isLt
  have hi3 : (i 3).val < 256 := (i 3).isLt
  obtain ⟨t, ht⟩ := index_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- The output array after the run is the specification's function of the argument arrays as launched. -/
theorem final (c : Dev nD) :
    (dats m 0 c).arrAt 2 cfg0.N = conv (m ((c : Thread nD τ).loc main_arg0)) (m ((c : Thread nD τ).loc main_arg1)) :=
  (dats m 0 c).arrAt_eq_of_cover 2 (conv (V m c main_arg0) (V m c main_arg1)) (fun t _ => flushed_eq m c t) covered

/-- The run, read: the output array at the specification's function of the arguments, the arguments unchanged. -/
theorem run : θ_run defs (onTc (τ := τ) (main (F := Ideal))) ⟨m, fun _ => 0, ρ⟩ fun r => ∀ c : Dev nD,
      r.2.mem ((c : Thread nD τ).loc main_v0) = conv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.RefTap.lean ====
/-
  The pieces the plain-array program is built from.

  The program forms the output by starting from the all-zero array and adding, for tap n = 0, …, 24 in turn, the
  pixel-by-pixel product of
    * the input array cut to its 256 x 256 window at spatial offset (di, dj), n = 5 di + dj, and
    * weight plane n — an [8, 1, 256, 256] slab — spread over the 64 channels.
  Here these pieces are named: the zero array, the spreading of a weight slab over the channels, and one tap's product.
  They are stated for any float instance; nothing here is about values yet.
-/
import proofs.«151491_j79972291051911_2_alg».proof.Proof.Gen.ReferenceIdeal

noncomputable section

namespace Cert.ReferenceIdeal.Line

open Cert.ReferenceIdeal Cert.ReferenceIdeal.Gen Idealize.ShloMosaic

variable {F : FTy → Type} [FloatOps F]

/-- The all-zero [8, 64, 256, 256] array the sum starts from. -/
def zeros : FVec F S8x64x256x256 .f32 :=
  broadcastInDim S8x64x256x256 ![] bcast_S_S8x64x256x256 (constant S_ .f32 0x00000000#32)

/-- An [8, 1, 256, 256] slab of weights seen as [8, 256, 256], put back as [8, 1, 256, 256] and spread over the 64 channels:
    at (b, c, h, w) it holds the slab's entry (b, 0, h, w), whatever the channel c. -/
def spread (kk : FVec F S8x1x256x256 .f32) : FVec F S8x64x256x256 .f32 :=
  broadcastInDim S8x64x256x256 ![0, 1, 2, 3] bcast_S8x1x256x256_S8x64x256x256_0_1_2_3
    (broadcastInDim S8x1x256x256 ![0, 2, 3] bcast_S8x256x256_S8x1x256x256_0_2_3
      (shapeCast S8x256x256 kk shapeCasts_S8x1x256x256_S8x256x256))

/-- One tap's product: the window of the input at offsets `offx` times the weight slab at offsets `offk` spread over the channels. -/
def tap (x : FVec F S8x64x260x260 .f32) (k : FVec F S8x25x256x256 .f32) (offx offk : Fin 4 → Nat)
    (hx : S8x64x260x260.Slices offx S8x64x256x256) (hk : S8x25x256x256.Slices offk S8x1x256x256) :
    FVec F S8x64x256x256 .f32 :=
  mulf (extractStridedSlice S8x64x256x256 offx x hx) (spread (extractStridedSlice S8x1x256x256 offk k hk))

end Cert.ReferenceIdeal.Line

end
-- ==== Proof.RefChain.lean ====
/-
  The plain-array program's running sum, cut where the program's text is cut.

  The program adds the 25 taps to the zero array one after the other. Its text comes in three consecutive stretches, and
  the cuts fall inside taps 8 and 16, so the sum is stated in the same three stretches:
    * `sumA`: zeros + tap 0 + … + tap 7;
    * `sumB a p q`: (a + p * spread q) + tap 9 + … + tap 15, where `a` is the sum so far and `p`, `q` are tap 8's input window
      and weight slab, already cut out by the first stretch;
    * `sumC a m`: (a + m) + tap 17 + … + tap 24, where `m` is tap 16's product, already formed by the second stretch;
  and `total` is the whole sum in one piece, zeros + tap 0 + … + tap 24, every addition in tap order. Putting the three
  stretches together gives `total` by unfolding the definitions.
-/
import proofs.«151491_j79972291051911_2_alg».proof.Proof.RefTap

noncomputable section

namespace Cert.ReferenceIdeal.Line

open Cert.ReferenceIdeal Cert.ReferenceIdeal.Gen Idealize.ShloMosaic

variable {F : FTy → Type} [FloatOps F]

/-- zeros + tap 0 + … + tap 7. -/
def sumA (x : FVec F S8x64x260x260 .f32) (k : FVec F S8x25x256x256 .f32) : FVec F S8x64x256x256 .f32 :=
  (addf (addf (addf (addf (addf (addf (addf (addf zeros
      (tap x k ![0, 0, 0, 0] ![0, 0, 0, 0] slices_S8x64x260x260_S8x64x256x256_0_0_0_0 slices_S8x25x256x256_S8x1x256x256_0_0_0_0))
      (tap x k ![0, 0, 0, 1] ![0, 1, 0, 0] slices_S8x64x260x260_S8x64x256x256_0_0_0_1 slices_S8x25x256x256_S8x1x256x256_0_1_0_0))
      (tap x k ![0, 0, 0, 2] ![0, 2, 0, 0] slices_S8x64x260x260_S8x64x256x256_0_0_0_2 slices_S8x25x256x256_S8x1x256x256_0_2_0_0))
      (tap x k ![0, 0, 0, 3] ![0, 3, 0, 0] slices_S8x64x260x260_S8x64x256x256_0_0_0_3 slices_S8x25x256x256_S8x1x256x256_0_3_0_0))
      (tap x k ![0, 0, 0, 4] ![0, 4, 0, 0] slices_S8x64x260x260_S8x64x256x256_0_0_0_4 slices_S8x25x256x256_S8x1x256x256_0_4_0_0))
      (tap x k ![0, 0, 1, 0] ![0, 5, 0, 0] slices_S8x64x260x260_S8x64x256x256_0_0_1_0 slices_S8x25x256x256_S8x1x256x256_0_5_0_0))
      (tap x k ![0, 0, 1, 1] ![0, 6, 0, 0] slices_S8x64x260x260_S8x64x256x256_0_0_1_1 slices_S8x25x256x256_S8x1x256x256_0_6_0_0))
      (tap x k ![0, 0, 1, 2] ![0, 7, 0, 0] slices_S8x64x260x260_S8x64x256x256_0_0_1_2 slices_S8x25x256x256_S8x1x256x256_0_7_0_0))

/-- Tap 8's input window and weight slab, as the first stretch cuts them out. -/
def window8 (x : FVec F S8x64x260x260 .f32) : FVec F S8x64x256x256 .f32 :=
  extractStridedSlice S8x64x256x256 ![0, 0, 1, 3] x slices_S8x64x260x260_S8x64x256x256_0_0_1_3
def slab8 (k : FVec F S8x25x256x256 .f32) : FVec F S8x1x256x256 .f32 :=
  extractStridedSlice S8x1x256x256 ![0, 8, 0, 0] k slices_S8x25x256x256_S8x1x256x256_0_8_0_0

/-- (a + p * spread q) + tap 9 + … + tap 15. -/
def sumB (a p : FVec F S8x64x256x256 .f32) (q : FVec F S8x1x256x256 .f32)
    (x : FVec F S8x64x260x260 .f32) (k : FVec F S8x25x256x256 .f32) : FVec F S8x64x256x256 .f32 :=
  (addf (addf (addf (addf (addf (addf (addf (addf a (mulf p (spread q)))
      (tap x k ![0, 0, 1, 4] ![0, 9, 0, 0] slices_S8x64x260x260_S8x64x256x256_0_0_1_4 slices_S8x25x256x256_S8x1x256x256_0_9_0_0))
      (tap x k ![0, 0, 2, 0] ![0, 10, 0, 0] slices_S8x64x260x260_S8x64x256x256_0_0_2_0 slices_S8x25x256x256_S8x1x256x256_0_10_0_0))
      (tap x k ![0, 0, 2, 1] ![0, 11, 0, 0] slices_S8x64x260x260_S8x64x256x256_0_0_2_1 slices_S8x25x256x256_S8x1x256x256_0_11_0_0))
      (tap x k ![0, 0, 2, 2] ![0, 12, 0, 0] slices_S8x64x260x260_S8x64x256x256_0_0_2_2 slices_S8x25x256x256_S8x1x256x256_0_12_0_0))
      (tap x k ![0, 0, 2, 3] ![0, 13, 0, 0] slices_S8x64x260x260_S8x64x256x256_0_0_2_3 slices_S8x25x256x256_S8x1x256x256_0_13_0_0))
      (tap x k ![0, 0, 2, 4] ![0, 14, 0, 0] slices_S8x64x260x260_S8x64x256x256_0_0_2_4 slices_S8x25x256x256_S8x1x256x256_0_14_0_0))
      (tap x k ![0, 0, 3, 0] ![0, 15, 0, 0] slices_S8x64x260x260_S8x64x256x256_0_0_3_0 slices_S8x25x256x256_S8x1x256x256_0_15_0_0))

/-- Tap 16's product, as the second stretch forms it. -/
def product16 (x : FVec F S8x64x260x260 .f32) (k : FVec F S8x25x256x256 .f32) : FVec F S8x64x256x256 .f32 :=
  tap x k ![0, 0, 3, 1] ![0, 16, 0, 0] slices_S8x64x260x260_S8x64x256x256_0_0_3_1 slices_S8x25x256x256_S8x1x256x256_0_16_0_0

/-- (a + m) + tap 17 + … + tap 24. -/
def sumC (a m : FVec F S8x64x256x256 .f32)
    (x : FVec F S8x64x260x260 .f32) (k : FVec F S8x25x256x256 .f32) : FVec F S8x64x256x256 .f32 :=
  (addf (addf (addf (addf (addf (addf (addf (addf (addf a m)
      (tap x k ![0, 0, 3, 2] ![0, 17, 0, 0] slices_S8x64x260x260_S8x64x256x256_0_0_3_2 slices_S8x25x256x256_S8x1x256x256_0_17_0_0))
      (tap x k ![0, 0, 3, 3] ![0, 18, 0, 0] slices_S8x64x260x260_S8x64x256x256_0_0_3_3 slices_S8x25x256x256_S8x1x256x256_0_18_0_0))
      (tap x k ![0, 0, 3, 4] ![0, 19, 0, 0] slices_S8x64x260x260_S8x64x256x256_0_0_3_4 slices_S8x25x256x256_S8x1x256x256_0_19_0_0))
      (tap x k ![0, 0, 4, 0] ![0, 20, 0, 0] slices_S8x64x260x260_S8x64x256x256_0_0_4_0 slices_S8x25x256x256_S8x1x256x256_0_20_0_0))
      (tap x k ![0, 0, 4, 1] ![0, 21, 0, 0] slices_S8x64x260x260_S8x64x256x256_0_0_4_1 slices_S8x25x256x256_S8x1x256x256_0_21_0_0))
      (tap x k ![0, 0, 4, 2] ![0, 22, 0, 0] slices_S8x64x260x260_S8x64x256x256_0_0_4_2 slices_S8x25x256x256_S8x1x256x256_0_22_0_0))
      (tap x k ![0, 0, 4, 3] ![0, 23, 0, 0] slices_S8x64x260x260_S8x64x256x256_0_0_4_3 slices_S8x25x256x256_S8x1x256x256_0_23_0_0))
      (tap x k ![0, 0, 4, 4] ![0, 24, 0, 0] slices_S8x64x260x260_S8x64x256x256_0_0_4_4 slices_S8x25x256x256_S8x1x256x256_0_24_0_0))

/-- The whole sum: zeros + tap 0 + … + tap 24, in tap order. -/
def total (x : FVec F S8x64x260x260 .f32) (k : FVec F S8x25x256x256 .f32) : FVec F S8x64x256x256 .f32 :=
  (addf (addf (addf (addf (addf (addf (addf (addf (addf (addf (addf (addf (addf (addf (addf (addf (addf (addf (addf (addf (addf (addf (addf (addf (addf zeros
      (tap x k ![0, 0, 0, 0] ![0, 0, 0, 0] slices_S8x64x260x260_S8x64x256x256_0_0_0_0 slices_S8x25x256x256_S8x1x256x256_0_0_0_0))
      (tap x k ![0, 0, 0, 1] ![0, 1, 0, 0] slices_S8x64x260x260_S8x64x256x256_0_0_0_1 slices_S8x25x256x256_S8x1x256x256_0_1_0_0))
      (tap x k ![0, 0, 0, 2] ![0, 2, 0, 0] slices_S8x64x260x260_S8x64x256x256_0_0_0_2 slices_S8x25x256x256_S8x1x256x256_0_2_0_0))
      (tap x k ![0, 0, 0, 3] ![0, 3, 0, 0] slices_S8x64x260x260_S8x64x256x256_0_0_0_3 slices_S8x25x256x256_S8x1x256x256_0_3_0_0))
      (tap x k ![0, 0, 0, 4] ![0, 4, 0, 0] slices_S8x64x260x260_S8x64x256x256_0_0_0_4 slices_S8x25x256x256_S8x1x256x256_0_4_0_0))
      (tap x k ![0, 0, 1, 0] ![0, 5, 0, 0] slices_S8x64x260x260_S8x64x256x256_0_0_1_0 slices_S8x25x256x256_S8x1x256x256_0_5_0_0))
      (tap x k ![0, 0, 1, 1] ![0, 6, 0, 0] slices_S8x64x260x260_S8x64x256x256_0_0_1_1 slices_S8x25x256x256_S8x1x256x256_0_6_0_0))
      (tap x k ![0, 0, 1, 2] ![0, 7, 0, 0] slices_S8x64x260x260_S8x64x256x256_0_0_1_2 slices_S8x25x256x256_S8x1x256x256_0_7_0_0))
      (tap x k ![0, 0, 1, 3] ![0, 8, 0, 0] slices_S8x64x260x260_S8x64x256x256_0_0_1_3 slices_S8x25x256x256_S8x1x256x256_0_8_0_0))
      (tap x k ![0, 0, 1, 4] ![0, 9, 0, 0] slices_S8x64x260x260_S8x64x256x256_0_0_1_4 slices_S8x25x256x256_S8x1x256x256_0_9_0_0))
      (tap x k ![0, 0, 2, 0] ![0, 10, 0, 0] slices_S8x64x260x260_S8x64x256x256_0_0_2_0 slices_S8x25x256x256_S8x1x256x256_0_10_0_0))
      (tap x k ![0, 0, 2, 1] ![0, 11, 0, 0] slices_S8x64x260x260_S8x64x256x256_0_0_2_1 slices_S8x25x256x256_S8x1x256x256_0_11_0_0))
      (tap x k ![0, 0, 2, 2] ![0, 12, 0, 0] slices_S8x64x260x260_S8x64x256x256_0_0_2_2 slices_S8x25x256x256_S8x1x256x256_0_12_0_0))
      (tap x k ![0, 0, 2, 3] ![0, 13, 0, 0] slices_S8x64x260x260_S8x64x256x256_0_0_2_3 slices_S8x25x256x256_S8x1x256x256_0_13_0_0))
      (tap x k ![0, 0, 2, 4] ![0, 14, 0, 0] slices_S8x64x260x260_S8x64x256x256_0_0_2_4 slices_S8x25x256x256_S8x1x256x256_0_14_0_0))
      (tap x k ![0, 0, 3, 0] ![0, 15, 0, 0] slices_S8x64x260x260_S8x64x256x256_0_0_3_0 slices_S8x25x256x256_S8x1x256x256_0_15_0_0))
      (tap x k ![0, 0, 3, 1] ![0, 16, 0, 0] slices_S8x64x260x260_S8x64x256x256_0_0_3_1 slices_S8x25x256x256_S8x1x256x256_0_16_0_0))
      (tap x k ![0, 0, 3, 2] ![0, 17, 0, 0] slices_S8x64x260x260_S8x64x256x256_0_0_3_2 slices_S8x25x256x256_S8x1x256x256_0_17_0_0))
      (tap x k ![0, 0, 3, 3] ![0, 18, 0, 0] slices_S8x64x260x260_S8x64x256x256_0_0_3_3 slices_S8x25x256x256_S8x1x256x256_0_18_0_0))
      (tap x k ![0, 0, 3, 4] ![0, 19, 0, 0] slices_S8x64x260x260_S8x64x256x256_0_0_3_4 slices_S8x25x256x256_S8x1x256x256_0_19_0_0))
      (tap x k ![0, 0, 4, 0] ![0, 20, 0, 0] slices_S8x64x260x260_S8x64x256x256_0_0_4_0 slices_S8x25x256x256_S8x1x256x256_0_20_0_0))
      (tap x k ![0, 0, 4, 1] ![0, 21, 0, 0] slices_S8x64x260x260_S8x64x256x256_0_0_4_1 slices_S8x25x256x256_S8x1x256x256_0_21_0_0))
      (tap x k ![0, 0, 4, 2] ![0, 22, 0, 0] slices_S8x64x260x260_S8x64x256x256_0_0_4_2 slices_S8x25x256x256_S8x1x256x256_0_22_0_0))
      (tap x k ![0, 0, 4, 3] ![0, 23, 0, 0] slices_S8x64x260x260_S8x64x256x256_0_0_4_3 slices_S8x25x256x256_S8x1x256x256_0_23_0_0))
      (tap x k ![0, 0, 4, 4] ![0, 24, 0, 0] slices_S8x64x260x260_S8x64x256x256_0_0_4_4 slices_S8x25x256x256_S8x1x256x256_0_24_0_0))

/-- The three stretches, each fed what the one before left, make the whole sum. -/
theorem stretches_eq_total (x : FVec F S8x64x260x260 .f32) (k : FVec F S8x25x256x256 .f32) :
    sumC (sumB (sumA x k) (window8 x) (slab8 k) x k) (product16 x k) x k = total x k := rfl

end Cert.ReferenceIdeal.Line

end
-- ==== Proof.RefPart0.lean ====
/-
  The first stretch of the plain-array program: the zero array, taps 0 to 7 added to it in order, and tap 8's input window
  and weight slab cut out. Listed as data, identified with the printed text, and read: from any buffer contents V it
  leaves zeros + tap 0 + … + tap 7 of V's two arguments in the running-sum buffer, tap 8's two cuts in theirs, and the
  arguments as they were.
-/
import proofs.«151491_j79972291051911_2_alg».proof.Proof.RefChain
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Operations 1 to 60 of the program, in order. -/
abbrev ops0 : List (HloOp τ sig (Elt F)) :=
  [ nullary main_cst (constant S_ .f32 0x00000000#32),
    unary main_cst main_v0 (broadcastInDim S8x64x256x256 ![] bcast_S_S8x64x256x256 : (⟨S_, .f32⟩ : BufTy).Contents (Elt F) → (⟨S8x64x256x256, .f32⟩ : BufTy).Contents (Elt F)),
    unary main_arg0 main_v1 ((extractStridedSlice S8x64x256x256 ![0, 0, 0, 0] · slices_S8x64x260x260_S8x64x256x256_0_0_0_0) : (⟨S8x64x260x260, .f32⟩ : BufTy).Contents (Elt F) → (⟨S8x64x256x256, .f32⟩ : BufTy).Contents (Elt F)),
    unary main_arg1 main_v2 ((extractStridedSlice S8x1x256x256 ![0, 0, 0, 0] · slices_S8x25x256x256_S8x1x256x256_0_0_0_0) : (⟨S8x25x256x256, .f32⟩ : BufTy).Contents (Elt F) → (⟨S8x1x256x256, .f32⟩ : BufTy).Contents (Elt F)),
    reshape main_v2 main_v3 rfl shapeCasts_S8x1x256x256_S8x256x256,
    unary main_v3 main_v4 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v4 main_v5 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v1 main_v5 main_v6 (mulf : (⟨S8x64x256x256, .f32⟩ : BufTy).Contents (Elt F) → (⟨S8x64x256x256, .f32⟩ : BufTy).Contents (Elt F) → (⟨S8x64x256x256, .f32⟩ : BufTy).Contents (Elt F)),
    binary main_v0 main_v6 main_v7 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v8 ((extractStridedSlice S8x64x256x256 ![0, 0, 0, 1] · slices_S8x64x260x260_S8x64x256x256_0_0_0_1) : (⟨S8x64x260x260, .f32⟩ : BufTy).Contents (Elt F) → (⟨S8x64x256x256, .f32⟩ : BufTy).Contents (Elt F)),
    unary main_arg1 main_v9 ((extractStridedSlice S8x1x256x256 ![0, 1, 0, 0] · slices_S8x25x256x256_S8x1x256x256_0_1_0_0) : (⟨S8x25x256x256, .f32⟩ : BufTy).Contents (Elt F) → (⟨S8x1x256x256, .f32⟩ : BufTy).Contents (Elt F)),
    reshape main_v9 main_v10 rfl shapeCasts_S8x1x256x256_S8x256x256,
    unary main_v10 main_v11 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v11 main_v12 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v8 main_v12 main_v13 (mulf : (⟨S8x64x256x256, .f32⟩ : BufTy).Contents (Elt F) → (⟨S8x64x256x256, .f32⟩ : BufTy).Contents (Elt F) → (⟨S8x64x256x256, .f32⟩ : BufTy).Contents (Elt F)),
    binary main_v7 main_v13 main_v14 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v15 ((extractStridedSlice S8x64x256x256 ![0, 0, 0, 2] · slices_S8x64x260x260_S8x64x256x256_0_0_0_2) : (⟨S8x64x260x260, .f32⟩ : BufTy).Contents (Elt F) → (⟨S8x64x256x256, .f32⟩ : BufTy).Contents (Elt F)),
    unary main_arg1 main_v16 ((extractStridedSlice S8x1x256x256 ![0, 2, 0, 0] · slices_S8x25x256x256_S8x1x256x256_0_2_0_0) : (⟨S8x25x256x256, .f32⟩ : BufTy).Contents (Elt F) → (⟨S8x1x256x256, .f32⟩ : BufTy).Contents (Elt F)),
    reshape main_v16 main_v17 rfl shapeCasts_S8x1x256x256_S8x256x256,
    unary main_v17 main_v18 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v18 main_v19 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v15 main_v19 main_v20 (mulf : (⟨S8x64x256x256, .f32⟩ : BufTy).Contents (Elt F) → (⟨S8x64x256x256, .f32⟩ : BufTy).Contents (Elt F) → (⟨S8x64x256x256, .f32⟩ : BufTy).Contents (Elt F)),
    binary main_v14 main_v20 main_v21 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v22 ((extractStridedSlice S8x64x256x256 ![0, 0, 0, 3] · slices_S8x64x260x260_S8x64x256x256_0_0_0_3) : (⟨S8x64x260x260, .f32⟩ : BufTy).Contents (Elt F) → (⟨S8x64x256x256, .f32⟩ : BufTy).Contents (Elt F)),
    unary main_arg1 main_v23 ((extractStridedSlice S8x1x256x256 ![0, 3, 0, 0] · slices_S8x25x256x256_S8x1x256x256_0_3_0_0) : (⟨S8x25x256x256, .f32⟩ : BufTy).Contents (Elt F) → (⟨S8x1x256x256, .f32⟩ : BufTy).Contents (Elt F)),
    reshape main_v23 main_v24 rfl shapeCasts_S8x1x256x256_S8x256x256,
    unary main_v24 main_v25 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v25 main_v26 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v22 main_v26 main_v27 (mulf : (⟨S8x64x256x256, .f32⟩ : BufTy).Contents (Elt F) → (⟨S8x64x256x256, .f32⟩ : BufTy).Contents (Elt F) → (⟨S8x64x256x256, .f32⟩ : BufTy).Contents (Elt F)),
    binary main_v21 main_v27 main_v28 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v29 ((extractStridedSlice S8x64x256x256 ![0, 0, 0, 4] · slices_S8x64x260x260_S8x64x256x256_0_0_0_4) : (⟨S8x64x260x260, .f32⟩ : BufTy).Contents (Elt F) → (⟨S8x64x256x256, .f32⟩ : BufTy).Contents (Elt F)),
    unary main_arg1 main_v30 ((extractStridedSlice S8x1x256x256 ![0, 4, 0, 0] · slices_S8x25x256x256_S8x1x256x256_0_4_0_0) : (⟨S8x25x256x256, .f32⟩ : BufTy).Contents (Elt F) → (⟨S8x1x256x256, .f32⟩ : BufTy).Contents (Elt F)),
    reshape main_v30 main_v31 rfl shapeCasts_S8x1x256x256_S8x256x256,
    unary main_v31 main_v32 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v32 main_v33 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v29 main_v33 main_v34 (mulf : (⟨S8x64x256x256, .f32⟩ : BufTy).Contents (Elt F) → (⟨S8x64x256x256, .f32⟩ : BufTy).Contents (Elt F) → (⟨S8x64x256x256, .f32⟩ : BufTy).Contents (Elt F)),
    binary main_v28 main_v34 main_v35 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v36 ((extractStridedSlice S8x64x256x256 ![0, 0, 1, 0] · slices_S8x64x260x260_S8x64x256x256_0_0_1_0) : (⟨S8x64x260x260, .f32⟩ : BufTy).Contents (Elt F) → (⟨S8x64x256x256, .f32⟩ : BufTy).Contents (Elt F)),
    unary main_arg1 main_v37 ((extractStridedSlice S8x1x256x256 ![0, 5, 0, 0] · slices_S8x25x256x256_S8x1x256x256_0_5_0_0) : (⟨S8x25x256x256, .f32⟩ : BufTy).Contents (Elt F) → (⟨S8x1x256x256, .f32⟩ : BufTy).Contents (Elt F)),
    reshape main_v37 main_v38 rfl shapeCasts_S8x1x256x256_S8x256x256,
    unary main_v38 main_v39 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v39 main_v40 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v36 main_v40 main_v41 (mulf : (⟨S8x64x256x256, .f32⟩ : BufTy).Contents (Elt F) → (⟨S8x64x256x256, .f32⟩ : BufTy).Contents (Elt F) → (⟨S8x64x256x256, .f32⟩ : BufTy).Contents (Elt F)),
    binary main_v35 main_v41 main_v42 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v43 ((extractStridedSlice S8x64x256x256 ![0, 0, 1, 1] · slices_S8x64x260x260_S8x64x256x256_0_0_1_1) : (⟨S8x64x260x260, .f32⟩ : BufTy).Contents (Elt F) → (⟨S8x64x256x256, .f32⟩ : BufTy).Contents (Elt F)),
    unary main_arg1 main_v44 ((extractStridedSlice S8x1x256x256 ![0, 6, 0, 0] · slices_S8x25x256x256_S8x1x256x256_0_6_0_0) : (⟨S8x25x256x256, .f32⟩ : BufTy).Contents (Elt F) → (⟨S8x1x256x256, .f32⟩ : BufTy).Contents (Elt F)),
    reshape main_v44 main_v45 rfl shapeCasts_S8x1x256x256_S8x256x256,
    unary main_v45 main_v46 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v46 main_v47 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v43 main_v47 main_v48 (mulf : (⟨S8x64x256x256, .f32⟩ : BufTy).Contents (Elt F) → (⟨S8x64x256x256, .f32⟩ : BufTy).Contents (Elt F) → (⟨S8x64x256x256, .f32⟩ : BufTy).Contents (Elt F)),
    binary main_v42 main_v48 main_v49 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v50 ((extractStridedSlice S8x64x256x256 ![0, 0, 1, 2] · slices_S8x64x260x260_S8x64x256x256_0_0_1_2) : (⟨S8x64x260x260, .f32⟩ : BufTy).Contents (Elt F) → (⟨S8x64x256x256, .f32⟩ : BufTy).Contents (Elt F)),
    unary main_arg1 main_v51 ((extractStridedSlice S8x1x256x256 ![0, 7, 0, 0] · slices_S8x25x256x256_S8x1x256x256_0_7_0_0) : (⟨S8x25x256x256, .f32⟩ : BufTy).Contents (Elt F) → (⟨S8x1x256x256, .f32⟩ : BufTy).Contents (Elt F)),
    reshape main_v51 main_v52 rfl shapeCasts_S8x1x256x256_S8x256x256,
    unary main_v52 main_v53 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v53 main_v54 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v50 main_v54 main_v55 (mulf : (⟨S8x64x256x256, .f32⟩ : BufTy).Contents (Elt F) → (⟨S8x64x256x256, .f32⟩ : BufTy).Contents (Elt F) → (⟨S8x64x256x256, .f32⟩ : BufTy).Contents (Elt F)),
    binary main_v49 main_v55 main_v56 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v57 ((extractStridedSlice S8x64x256x256 ![0, 0, 1, 3] · slices_S8x64x260x260_S8x64x256x256_0_0_1_3) : (⟨S8x64x260x260, .f32⟩ : BufTy).Contents (Elt F) → (⟨S8x64x256x256, .f32⟩ : BufTy).Contents (Elt F)),
    unary main_arg1 main_v58 ((extractStridedSlice S8x1x256x256 ![0, 8, 0, 0] · slices_S8x25x256x256_S8x1x256x256_0_8_0_0) : (⟨S8x25x256x256, .f32⟩ : BufTy).Contents (Elt F) → (⟨S8x1x256x256, .f32⟩ : BufTy).Contents (Elt F)) ]

set_option maxRecDepth 8192 in
set_option maxHeartbeats 4000000 in
/-- The program's stretch number 0 is this list run in order. -/
theorem part0_eq (c : Dev nD) : main_part0 (F := F) c = seq ops0 := rfl

set_option maxRecDepth 8192 in
/-- Every buffer these operations touch is one of the program's own. -/
theorem ops0_sub : (ops0 : List (HloOp τ sig (Elt F))).Forall fun op => op.bufs ⊆ tcRefs τ sig :=
  ⟨nullary_bufs_sub .., unary_bufs_sub .., unary_bufs_sub .., unary_bufs_sub .., reshape_bufs_sub .., unary_bufs_sub ..,
    unary_bufs_sub .., binary_bufs_sub .., binary_bufs_sub .., unary_bufs_sub .., unary_bufs_sub .., reshape_bufs_sub ..,
    unary_bufs_sub .., unary_bufs_sub .., binary_bufs_sub .., binary_bufs_sub .., unary_bufs_sub .., unary_bufs_sub ..,
    reshape_bufs_sub .., unary_bufs_sub .., unary_bufs_sub .., binary_bufs_sub .., binary_bufs_sub .., unary_bufs_sub ..,
    unary_bufs_sub .., reshape_bufs_sub .., unary_bufs_sub .., unary_bufs_sub .., binary_bufs_sub .., binary_bufs_sub ..,
    unary_bufs_sub .., unary_bufs_sub .., reshape_bufs_sub .., unary_bufs_sub .., unary_bufs_sub .., binary_bufs_sub ..,
    binary_bufs_sub .., unary_bufs_sub .., unary_bufs_sub .., reshape_bufs_sub .., unary_bufs_sub .., unary_bufs_sub ..,
    binary_bufs_sub .., binary_bufs_sub .., unary_bufs_sub .., unary_bufs_sub .., reshape_bufs_sub .., unary_bufs_sub ..,
    unary_bufs_sub .., binary_bufs_sub .., binary_bufs_sub .., unary_bufs_sub .., unary_bufs_sub .., reshape_bufs_sub ..,
    unary_bufs_sub .., unary_bufs_sub .., binary_bufs_sub .., binary_bufs_sub .., unary_bufs_sub .., unary_bufs_sub ..⟩

set_option maxRecDepth 8192 in
set_option maxHeartbeats 4000000 in
/-- Every one of these operations determines its result. -/
theorem ops0_fresh : ∀ op ∈ (ops0 : List (HloOp τ sig (Elt F))), op.fresh = ∅ := by
  intro _ h
  repeat (cases h with | head => rfl | tail _ h => ?_)
  exact nomatch h

set_option maxRecDepth 8192 in
set_option maxHeartbeats 8000000 in
/-- The running sum after taps 0 to 7. -/
theorem leaves0_sum (V : Valuation τ sig (Elt F)) :
    after ops0 V (Proc.devRef .tc main_v56) = sumA (V (Proc.devRef .tc main_arg0)) (V (Proc.devRef .tc main_arg1)) := by
  after_results_simp <;> rfl

set_option maxRecDepth 8192 in
set_option maxHeartbeats 8000000 in
/-- Tap 8's input window. -/
theorem leaves0_window (V : Valuation τ sig (Elt F)) :
    after ops0 V (Proc.devRef .tc main_v57) = window8 (V (Proc.devRef .tc main_arg0)) := by
  after_results_simp <;> rfl

set_option maxRecDepth 8192 in
set_option maxHeartbeats 8000000 in
/-- Tap 8's weight slab. -/
theorem leaves0_slab (V : Valuation τ sig (Elt F)) :
    after ops0 V (Proc.devRef .tc main_v58) = slab8 (V (Proc.devRef .tc main_arg1)) := by
  after_results_simp <;> rfl

set_option maxRecDepth 8192 in
set_option maxHeartbeats 8000000 in
/-- These operations do not write the input array. -/
theorem keeps0_x (V : Valuation τ sig (Elt F)) :
    after ops0 V (Proc.devRef .tc main_arg0) = V (Proc.devRef .tc main_arg0) := by
  after_results_simp <;> rfl

set_option maxRecDepth 8192 in
set_option maxHeartbeats 8000000 in
/-- These operations do not write the weights. -/
theorem keeps0_k (V : Valuation τ sig (Elt F)) :
    after ops0 V (Proc.devRef .tc main_arg1) = V (Proc.devRef .tc main_arg1) := by
  after_results_simp <;> rfl

end Cert.ReferenceIdeal.Line

end
-- ==== Proof.RefPart1.lean ====
/-
  The second stretch of the plain-array program: tap 8 finished from the two cuts the first stretch left, taps 9 to 15
  added in order, and tap 16's product formed. Listed as data, identified with the printed text, and read: from any buffer
  contents V it leaves (V's running sum + V's window * spread of V's slab) + tap 9 + … + tap 15 in the running-sum buffer,
  tap 16's product in its buffer, and the arguments as they were.
-/
import proofs.«151491_j79972291051911_2_alg».proof.Proof.RefChain
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Operations 61 to 120 of the program, in order. -/
abbrev ops1 : List (HloOp τ sig (Elt F)) :=
  [ reshape main_v58 main_v59 rfl shapeCasts_S8x1x256x256_S8x256x256,
    unary main_v59 main_v60 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v60 main_v61 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v57 main_v61 main_v62 (mulf : (⟨S8x64x256x256, .f32⟩ : BufTy).Contents (Elt F) → (⟨S8x64x256x256, .f32⟩ : BufTy).Contents (Elt F) → (⟨S8x64x256x256, .f32⟩ : BufTy).Contents (Elt F)),
    binary main_v56 main_v62 main_v63 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v64 ((extractStridedSlice S8x64x256x256 ![0, 0, 1, 4] · slices_S8x64x260x260_S8x64x256x256_0_0_1_4) : (⟨S8x64x260x260, .f32⟩ : BufTy).Contents (Elt F) → (⟨S8x64x256x256, .f32⟩ : BufTy).Contents (Elt F)),
    unary main_arg1 main_v65 ((extractStridedSlice S8x1x256x256 ![0, 9, 0, 0] · slices_S8x25x256x256_S8x1x256x256_0_9_0_0) : (⟨S8x25x256x256, .f32⟩ : BufTy).Contents (Elt F) → (⟨S8x1x256x256, .f32⟩ : BufTy).Contents (Elt F)),
    reshape main_v65 main_v66 rfl shapeCasts_S8x1x256x256_S8x256x256,
    unary main_v66 main_v67 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v67 main_v68 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v64 main_v68 main_v69 (mulf : (⟨S8x64x256x256, .f32⟩ : BufTy).Contents (Elt F) → (⟨S8x64x256x256, .f32⟩ : BufTy).Contents (Elt F) → (⟨S8x64x256x256, .f32⟩ : BufTy).Contents (Elt F)),
    binary main_v63 main_v69 main_v70 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v71 ((extractStridedSlice S8x64x256x256 ![0, 0, 2, 0] · slices_S8x64x260x260_S8x64x256x256_0_0_2_0) : (⟨S8x64x260x260, .f32⟩ : BufTy).Contents (Elt F) → (⟨S8x64x256x256, .f32⟩ : BufTy).Contents (Elt F)),
    unary main_arg1 main_v72 ((extractStridedSlice S8x1x256x256 ![0, 10, 0, 0] · slices_S8x25x256x256_S8x1x256x256_0_10_0_0) : (⟨S8x25x256x256, .f32⟩ : BufTy).Contents (Elt F) → (⟨S8x1x256x256, .f32⟩ : BufTy).Contents (Elt F)),
    reshape main_v72 main_v73 rfl shapeCasts_S8x1x256x256_S8x256x256,
    unary main_v73 main_v74 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v74 main_v75 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v71 main_v75 main_v76 (mulf : (⟨S8x64x256x256, .f32⟩ : BufTy).Contents (Elt F) → (⟨S8x64x256x256, .f32⟩ : BufTy).Contents (Elt F) → (⟨S8x64x256x256, .f32⟩ : BufTy).Contents (Elt F)),
    binary main_v70 main_v76 main_v77 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v78 ((extractStridedSlice S8x64x256x256 ![0, 0, 2, 1] · slices_S8x64x260x260_S8x64x256x256_0_0_2_1) : (⟨S8x64x260x260, .f32⟩ : BufTy).Contents (Elt F) → (⟨S8x64x256x256, .f32⟩ : BufTy).Contents (Elt F)),
    unary main_arg1 main_v79 ((extractStridedSlice S8x1x256x256 ![0, 11, 0, 0] · slices_S8x25x256x256_S8x1x256x256_0_11_0_0) : (⟨S8x25x256x256, .f32⟩ : BufTy).Contents (Elt F) → (⟨S8x1x256x256, .f32⟩ : BufTy).Contents (Elt F)),
    reshape main_v79 main_v80 rfl shapeCasts_S8x1x256x256_S8x256x256,
    unary main_v80 main_v81 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v81 main_v82 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v78 main_v82 main_v83 (mulf : (⟨S8x64x256x256, .f32⟩ : BufTy).Contents (Elt F) → (⟨S8x64x256x256, .f32⟩ : BufTy).Contents (Elt F) → (⟨S8x64x256x256, .f32⟩ : BufTy).Contents (Elt F)),
    binary main_v77 main_v83 main_v84 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v85 ((extractStridedSlice S8x64x256x256 ![0, 0, 2, 2] · slices_S8x64x260x260_S8x64x256x256_0_0_2_2) : (⟨S8x64x260x260, .f32⟩ : BufTy).Contents (Elt F) → (⟨S8x64x256x256, .f32⟩ : BufTy).Contents (Elt F)),
    unary main_arg1 main_v86 ((extractStridedSlice S8x1x256x256 ![0, 12, 0, 0] · slices_S8x25x256x256_S8x1x256x256_0_12_0_0) : (⟨S8x25x256x256, .f32⟩ : BufTy).Contents (Elt F) → (⟨S8x1x256x256, .f32⟩ : BufTy).Contents (Elt F)),
    reshape main_v86 main_v87 rfl shapeCasts_S8x1x256x256_S8x256x256,
    unary main_v87 main_v88 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v88 main_v89 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v85 main_v89 main_v90 (mulf : (⟨S8x64x256x256, .f32⟩ : BufTy).Contents (Elt F) → (⟨S8x64x256x256, .f32⟩ : BufTy).Contents (Elt F) → (⟨S8x64x256x256, .f32⟩ : BufTy).Contents (Elt F)),
    binary main_v84 main_v90 main_v91 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v92 ((extractStridedSlice S8x64x256x256 ![0, 0, 2, 3] · slices_S8x64x260x260_S8x64x256x256_0_0_2_3) : (⟨S8x64x260x260, .f32⟩ : BufTy).Contents (Elt F) → (⟨S8x64x256x256, .f32⟩ : BufTy).Contents (Elt F)),
    unary main_arg1 main_v93 ((extractStridedSlice S8x1x256x256 ![0, 13, 0, 0] · slices_S8x25x256x256_S8x1x256x256_0_13_0_0) : (⟨S8x25x256x256, .f32⟩ : BufTy).Contents (Elt F) → (⟨S8x1x256x256, .f32⟩ : BufTy).Contents (Elt F)),
    reshape main_v93 main_v94 rfl shapeCasts_S8x1x256x256_S8x256x256,
    unary main_v94 main_v95 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v95 main_v96 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v92 main_v96 main_v97 (mulf : (⟨S8x64x256x256, .f32⟩ : BufTy).Contents (Elt F) → (⟨S8x64x256x256, .f32⟩ : BufTy).Contents (Elt F) → (⟨S8x64x256x256, .f32⟩ : BufTy).Contents (Elt F)),
    binary main_v91 main_v97 main_v98 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v99 ((extractStridedSlice S8x64x256x256 ![0, 0, 2, 4] · slices_S8x64x260x260_S8x64x256x256_0_0_2_4) : (⟨S8x64x260x260, .f32⟩ : BufTy).Contents (Elt F) → (⟨S8x64x256x256, .f32⟩ : BufTy).Contents (Elt F)),
    unary main_arg1 main_v100 ((extractStridedSlice S8x1x256x256 ![0, 14, 0, 0] · slices_S8x25x256x256_S8x1x256x256_0_14_0_0) : (⟨S8x25x256x256, .f32⟩ : BufTy).Contents (Elt F) → (⟨S8x1x256x256, .f32⟩ : BufTy).Contents (Elt F)),
    reshape main_v100 main_v101 rfl shapeCasts_S8x1x256x256_S8x256x256,
    unary main_v101 main_v102 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v102 main_v103 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v99 main_v103 main_v104 (mulf : (⟨S8x64x256x256, .f32⟩ : BufTy).Contents (Elt F) → (⟨S8x64x256x256, .f32⟩ : BufTy).Contents (Elt F) → (⟨S8x64x256x256, .f32⟩ : BufTy).Contents (Elt F)),
    binary main_v98 main_v104 main_v105 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v106 ((extractStridedSlice S8x64x256x256 ![0, 0, 3, 0] · slices_S8x64x260x260_S8x64x256x256_0_0_3_0) : (⟨S8x64x260x260, .f32⟩ : BufTy).Contents (Elt F) → (⟨S8x64x256x256, .f32⟩ : BufTy).Contents (Elt F)),
    unary main_arg1 main_v107 ((extractStridedSlice S8x1x256x256 ![0, 15, 0, 0] · slices_S8x25x256x256_S8x1x256x256_0_15_0_0) : (⟨S8x25x256x256, .f32⟩ : BufTy).Contents (Elt F) → (⟨S8x1x256x256, .f32⟩ : BufTy).Contents (Elt F)),
    reshape main_v107 main_v108 rfl shapeCasts_S8x1x256x256_S8x256x256,
    unary main_v108 main_v109 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v109 main_v110 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v106 main_v110 main_v111 (mulf : (⟨S8x64x256x256, .f32⟩ : BufTy).Contents (Elt F) → (⟨S8x64x256x256, .f32⟩ : BufTy).Contents (Elt F) → (⟨S8x64x256x256, .f32⟩ : BufTy).Contents (Elt F)),
    binary main_v105 main_v111 main_v112 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v113 ((extractStridedSlice S8x64x256x256 ![0, 0, 3, 1] · slices_S8x64x260x260_S8x64x256x256_0_0_3_1) : (⟨S8x64x260x260, .f32⟩ : BufTy).Contents (Elt F) → (⟨S8x64x256x256, .f32⟩ : BufTy).Contents (Elt F)),
    unary main_arg1 main_v114 ((extractStridedSlice S8x1x256x256 ![0, 16, 0, 0] · slices_S8x25x256x256_S8x1x256x256_0_16_0_0) : (⟨S8x25x256x256, .f32⟩ : BufTy).Contents (Elt F) → (⟨S8x1x256x256, .f32⟩ : BufTy).Contents (Elt F)),
    reshape main_v114 main_v115 rfl shapeCasts_S8x1x256x256_S8x256x256,
    unary main_v115 main_v116 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v116 main_v117 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v113 main_v117 main_v118 (mulf : (⟨S8x64x256x256, .f32⟩ : BufTy).Contents (Elt F) → (⟨S8x64x256x256, .f32⟩ : BufTy).Contents (Elt F) → (⟨S8x64x256x256, .f32⟩ : BufTy).Contents (Elt F)) ]

set_option maxRecDepth 8192 in
set_option maxHeartbeats 4000000 in
/-- The program's stretch number 1 is this list run in order. -/
theorem part1_eq (c : Dev nD) : main_part1 (F := F) c = seq ops1 := rfl

set_option maxRecDepth 8192 in
/-- Every buffer these operations touch is one of the program's own. -/
theorem ops1_sub : (ops1 : List (HloOp τ sig (Elt F))).Forall fun op => op.bufs ⊆ tcRefs τ sig :=
  ⟨reshape_bufs_sub .., unary_bufs_sub .., unary_bufs_sub .., binary_bufs_sub .., binary_bufs_sub .., unary_bufs_sub ..,
    unary_bufs_sub .., reshape_bufs_sub .., unary_bufs_sub .., unary_bufs_sub .., binary_bufs_sub .., binary_bufs_sub ..,
    unary_bufs_sub .., unary_bufs_sub .., reshape_bufs_sub .., unary_bufs_sub .., unary_bufs_sub .., binary_bufs_sub ..,
    binary_bufs_sub .., unary_bufs_sub .., unary_bufs_sub .., reshape_bufs_sub .., unary_bufs_sub .., unary_bufs_sub ..,
    binary_bufs_sub .., binary_bufs_sub .., unary_bufs_sub .., unary_bufs_sub .., reshape_bufs_sub .., unary_bufs_sub ..,
    unary_bufs_sub .., binary_bufs_sub .., binary_bufs_sub .., unary_bufs_sub .., unary_bufs_sub .., reshape_bufs_sub ..,
    unary_bufs_sub .., unary_bufs_sub .., binary_bufs_sub .., binary_bufs_sub .., unary_bufs_sub .., unary_bufs_sub ..,
    reshape_bufs_sub .., unary_bufs_sub .., unary_bufs_sub .., binary_bufs_sub .., binary_bufs_sub .., unary_bufs_sub ..,
    unary_bufs_sub .., reshape_bufs_sub .., unary_bufs_sub .., unary_bufs_sub .., binary_bufs_sub .., binary_bufs_sub ..,
    unary_bufs_sub .., unary_bufs_sub .., reshape_bufs_sub .., unary_bufs_sub .., unary_bufs_sub .., binary_bufs_sub ..⟩

set_option maxRecDepth 8192 in
set_option maxHeartbeats 4000000 in
/-- Every one of these operations determines its result. -/
theorem ops1_fresh : ∀ op ∈ (ops1 : List (HloOp τ sig (Elt F))), op.fresh = ∅ := by
  intro _ h
  repeat (cases h with | head => rfl | tail _ h => ?_)
  exact nomatch h

set_option maxRecDepth 8192 in
set_option maxHeartbeats 8000000 in
/-- The running sum after taps 8 to 15, from what the first stretch left. -/
theorem leaves1_sum (V : Valuation τ sig (Elt F)) :
    after ops1 V (Proc.devRef .tc main_v112) = sumB (V (Proc.devRef .tc main_v56)) (V (Proc.devRef .tc main_v57)) (V (Proc.devRef .tc main_v58)) (V (Proc.devRef .tc main_arg0)) (V (Proc.devRef .tc main_arg1)) := by
  after_results_simp <;> rfl

set_option maxRecDepth 8192 in
set_option maxHeartbeats 8000000 in
/-- Tap 16's product. -/
theorem leaves1_product (V : Valuation τ sig (Elt F)) :
    after ops1 V (Proc.devRef .tc main_v118) = product16 (V (Proc.devRef .tc main_arg0)) (V (Proc.devRef .tc main_arg1)) := by
  after_results_simp <;> rfl

set_option maxRecDepth 8192 in
set_option maxHeartbeats 8000000 in
/-- These operations do not write the input array. -/
theorem keeps1_x (V : Valuation τ sig (Elt F)) :
    after ops1 V (Proc.devRef .tc main_arg0) = V (Proc.devRef .tc main_arg0) := by
  after_results_simp <;> rfl

set_option maxRecDepth 8192 in
set_option maxHeartbeats 8000000 in
/-- These operations do not write the weights. -/
theorem keeps1_k (V : Valuation τ sig (Elt F)) :
    after ops1 V (Proc.devRef .tc main_arg1) = V (Proc.devRef .tc main_arg1) := by
  after_results_simp <;> rfl

end Cert.ReferenceIdeal.Line

end
-- ==== Proof.RefPart2.lean ====
/-
  The third stretch of the plain-array program: tap 16's product added, then taps 17 to 24 in order. Listed as data,
  identified with the printed text, and read: from any buffer contents V it leaves (V's running sum + V's product)
  + tap 17 + … + tap 24 in the result buffer, and the arguments as they were.
-/
import proofs.«151491_j79972291051911_2_alg».proof.Proof.RefChain
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Operations 121 to 177 of the program, in order. -/
abbrev ops2 : List (HloOp τ sig (Elt F)) :=
  [ binary main_v112 main_v118 main_v119 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v120 ((extractStridedSlice S8x64x256x256 ![0, 0, 3, 2] · slices_S8x64x260x260_S8x64x256x256_0_0_3_2) : (⟨S8x64x260x260, .f32⟩ : BufTy).Contents (Elt F) → (⟨S8x64x256x256, .f32⟩ : BufTy).Contents (Elt F)),
    unary main_arg1 main_v121 ((extractStridedSlice S8x1x256x256 ![0, 17, 0, 0] · slices_S8x25x256x256_S8x1x256x256_0_17_0_0) : (⟨S8x25x256x256, .f32⟩ : BufTy).Contents (Elt F) → (⟨S8x1x256x256, .f32⟩ : BufTy).Contents (Elt F)),
    reshape main_v121 main_v122 rfl shapeCasts_S8x1x256x256_S8x256x256,
    unary main_v122 main_v123 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v123 main_v124 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v120 main_v124 main_v125 (mulf : (⟨S8x64x256x256, .f32⟩ : BufTy).Contents (Elt F) → (⟨S8x64x256x256, .f32⟩ : BufTy).Contents (Elt F) → (⟨S8x64x256x256, .f32⟩ : BufTy).Contents (Elt F)),
    binary main_v119 main_v125 main_v126 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v127 ((extractStridedSlice S8x64x256x256 ![0, 0, 3, 3] · slices_S8x64x260x260_S8x64x256x256_0_0_3_3) : (⟨S8x64x260x260, .f32⟩ : BufTy).Contents (Elt F) → (⟨S8x64x256x256, .f32⟩ : BufTy).Contents (Elt F)),
    unary main_arg1 main_v128 ((extractStridedSlice S8x1x256x256 ![0, 18, 0, 0] · slices_S8x25x256x256_S8x1x256x256_0_18_0_0) : (⟨S8x25x256x256, .f32⟩ : BufTy).Contents (Elt F) → (⟨S8x1x256x256, .f32⟩ : BufTy).Contents (Elt F)),
    reshape main_v128 main_v129 rfl shapeCasts_S8x1x256x256_S8x256x256,
    unary main_v129 main_v130 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v130 main_v131 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v127 main_v131 main_v132 (mulf : (⟨S8x64x256x256, .f32⟩ : BufTy).Contents (Elt F) → (⟨S8x64x256x256, .f32⟩ : BufTy).Contents (Elt F) → (⟨S8x64x256x256, .f32⟩ : BufTy).Contents (Elt F)),
    binary main_v126 main_v132 main_v133 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v134 ((extractStridedSlice S8x64x256x256 ![0, 0, 3, 4] · slices_S8x64x260x260_S8x64x256x256_0_0_3_4) : (⟨S8x64x260x260, .f32⟩ : BufTy).Contents (Elt F) → (⟨S8x64x256x256, .f32⟩ : BufTy).Contents (Elt F)),
    unary main_arg1 main_v135 ((extractStridedSlice S8x1x256x256 ![0, 19, 0, 0] · slices_S8x25x256x256_S8x1x256x256_0_19_0_0) : (⟨S8x25x256x256, .f32⟩ : BufTy).Contents (Elt F) → (⟨S8x1x256x256, .f32⟩ : BufTy).Contents (Elt F)),
    reshape main_v135 main_v136 rfl shapeCasts_S8x1x256x256_S8x256x256,
    unary main_v136 main_v137 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v137 main_v138 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v134 main_v138 main_v139 (mulf : (⟨S8x64x256x256, .f32⟩ : BufTy).Contents (Elt F) → (⟨S8x64x256x256, .f32⟩ : BufTy).Contents (Elt F) → (⟨S8x64x256x256, .f32⟩ : BufTy).Contents (Elt F)),
    binary main_v133 main_v139 main_v140 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v141 ((extractStridedSlice S8x64x256x256 ![0, 0, 4, 0] · slices_S8x64x260x260_S8x64x256x256_0_0_4_0) : (⟨S8x64x260x260, .f32⟩ : BufTy).Contents (Elt F) → (⟨S8x64x256x256, .f32⟩ : BufTy).Contents (Elt F)),
    unary main_arg1 main_v142 ((extractStridedSlice S8x1x256x256 ![0, 20, 0, 0] · slices_S8x25x256x256_S8x1x256x256_0_20_0_0) : (⟨S8x25x256x256, .f32⟩ : BufTy).Contents (Elt F) → (⟨S8x1x256x256, .f32⟩ : BufTy).Contents (Elt F)),
    reshape main_v142 main_v143 rfl shapeCasts_S8x1x256x256_S8x256x256,
    unary main_v143 main_v144 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v144 main_v145 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v141 main_v145 main_v146 (mulf : (⟨S8x64x256x256, .f32⟩ : BufTy).Contents (Elt F) → (⟨S8x64x256x256, .f32⟩ : BufTy).Contents (Elt F) → (⟨S8x64x256x256, .f32⟩ : BufTy).Contents (Elt F)),
    binary main_v140 main_v146 main_v147 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v148 ((extractStridedSlice S8x64x256x256 ![0, 0, 4, 1] · slices_S8x64x260x260_S8x64x256x256_0_0_4_1) : (⟨S8x64x260x260, .f32⟩ : BufTy).Contents (Elt F) → (⟨S8x64x256x256, .f32⟩ : BufTy).Contents (Elt F)),
    unary main_arg1 main_v149 ((extractStridedSlice S8x1x256x256 ![0, 21, 0, 0] · slices_S8x25x256x256_S8x1x256x256_0_21_0_0) : (⟨S8x25x256x256, .f32⟩ : BufTy).Contents (Elt F) → (⟨S8x1x256x256, .f32⟩ : BufTy).Contents (Elt F)),
    reshape main_v149 main_v150 rfl shapeCasts_S8x1x256x256_S8x256x256,
    unary main_v150 main_v151 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v151 main_v152 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v148 main_v152 main_v153 (mulf : (⟨S8x64x256x256, .f32⟩ : BufTy).Contents (Elt F) → (⟨S8x64x256x256, .f32⟩ : BufTy).Contents (Elt F) → (⟨S8x64x256x256, .f32⟩ : BufTy).Contents (Elt F)),
    binary main_v147 main_v153 main_v154 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v155 ((extractStridedSlice S8x64x256x256 ![0, 0, 4, 2] · slices_S8x64x260x260_S8x64x256x256_0_0_4_2) : (⟨S8x64x260x260, .f32⟩ : BufTy).Contents (Elt F) → (⟨S8x64x256x256, .f32⟩ : BufTy).Contents (Elt F)),
    unary main_arg1 main_v156 ((extractStridedSlice S8x1x256x256 ![0, 22, 0, 0] · slices_S8x25x256x256_S8x1x256x256_0_22_0_0) : (⟨S8x25x256x256, .f32⟩ : BufTy).Contents (Elt F) → (⟨S8x1x256x256, .f32⟩ : BufTy).Contents (Elt F)),
    reshape main_v156 main_v157 rfl shapeCasts_S8x1x256x256_S8x256x256,
    unary main_v157 main_v158 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v158 main_v159 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v155 main_v159 main_v160 (mulf : (⟨S8x64x256x256, .f32⟩ : BufTy).Contents (Elt F) → (⟨S8x64x256x256, .f32⟩ : BufTy).Contents (Elt F) → (⟨S8x64x256x256, .f32⟩ : BufTy).Contents (Elt F)),
    binary main_v154 main_v160 main_v161 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v162 ((extractStridedSlice S8x64x256x256 ![0, 0, 4, 3] · slices_S8x64x260x260_S8x64x256x256_0_0_4_3) : (⟨S8x64x260x260, .f32⟩ : BufTy).Contents (Elt F) → (⟨S8x64x256x256, .f32⟩ : BufTy).Contents (Elt F)),
    unary main_arg1 main_v163 ((extractStridedSlice S8x1x256x256 ![0, 23, 0, 0] · slices_S8x25x256x256_S8x1x256x256_0_23_0_0) : (⟨S8x25x256x256, .f32⟩ : BufTy).Contents (Elt F) → (⟨S8x1x256x256, .f32⟩ : BufTy).Contents (Elt F)),
    reshape main_v163 main_v164 rfl shapeCasts_S8x1x256x256_S8x256x256,
    unary main_v164 main_v165 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v165 main_v166 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v162 main_v166 main_v167 (mulf : (⟨S8x64x256x256, .f32⟩ : BufTy).Contents (Elt F) → (⟨S8x64x256x256, .f32⟩ : BufTy).Contents (Elt F) → (⟨S8x64x256x256, .f32⟩ : BufTy).Contents (Elt F)),
    binary main_v161 main_v167 main_v168 (addf : (⟨S8x64x256x256, .f32⟩ : BufTy).Contents (Elt F) → (⟨S8x64x256x256, .f32⟩ : BufTy).Contents (Elt F) → (⟨S8x64x256x256, .f32⟩ : BufTy).Contents (Elt F)),
    unary main_arg0 main_v169 ((extractStridedSlice S8x64x256x256 ![0, 0, 4, 4] · slices_S8x64x260x260_S8x64x256x256_0_0_4_4) : (⟨S8x64x260x260, .f32⟩ : BufTy).Contents (Elt F) → (⟨S8x64x256x256, .f32⟩ : BufTy).Contents (Elt F)),
    unary main_arg1 main_v170 ((extractStridedSlice S8x1x256x256 ![0, 24, 0, 0] · slices_S8x25x256x256_S8x1x256x256_0_24_0_0) : (⟨S8x25x256x256, .f32⟩ : BufTy).Contents (Elt F) → (⟨S8x1x256x256, .f32⟩ : BufTy).Contents (Elt F)),
    reshape main_v170 main_v171 rfl shapeCasts_S8x1x256x256_S8x256x256,
    unary main_v171 main_v172 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v172 main_v173 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v169 main_v173 main_v174 (mulf : (⟨S8x64x256x256, .f32⟩ : BufTy).Contents (Elt F) → (⟨S8x64x256x256, .f32⟩ : BufTy).Contents (Elt F) → (⟨S8x64x256x256, .f32⟩ : BufTy).Contents (Elt F)),
    binary main_v168 main_v174 main_v175 (addf : (⟨S8x64x256x256, .f32⟩ : BufTy).Contents (Elt F) → (⟨S8x64x256x256, .f32⟩ : BufTy).Contents (Elt F) → (⟨S8x64x256x256, .f32⟩ : BufTy).Contents (Elt F)) ]

set_option maxRecDepth 8192 in
set_option maxHeartbeats 4000000 in
/-- The program's stretch number 2 is this list run in order. -/
theorem part2_eq (c : Dev nD) : main_part2 (F := F) c = seq ops2 := rfl

set_option maxRecDepth 8192 in
/-- Every buffer these operations touch is one of the program's own. -/
theorem ops2_sub : (ops2 : List (HloOp τ sig (Elt F))).Forall fun op => op.bufs ⊆ tcRefs τ sig :=
  ⟨binary_bufs_sub .., unary_bufs_sub .., unary_bufs_sub .., reshape_bufs_sub .., unary_bufs_sub .., unary_bufs_sub ..,
    binary_bufs_sub .., binary_bufs_sub .., unary_bufs_sub .., unary_bufs_sub .., reshape_bufs_sub .., unary_bufs_sub ..,
    unary_bufs_sub .., binary_bufs_sub .., binary_bufs_sub .., unary_bufs_sub .., unary_bufs_sub .., reshape_bufs_sub ..,
    unary_bufs_sub .., unary_bufs_sub .., binary_bufs_sub .., binary_bufs_sub .., unary_bufs_sub .., unary_bufs_sub ..,
    reshape_bufs_sub .., unary_bufs_sub .., unary_bufs_sub .., binary_bufs_sub .., binary_bufs_sub .., unary_bufs_sub ..,
    unary_bufs_sub .., reshape_bufs_sub .., unary_bufs_sub .., unary_bufs_sub .., binary_bufs_sub .., binary_bufs_sub ..,
    unary_bufs_sub .., unary_bufs_sub .., reshape_bufs_sub .., unary_bufs_sub .., unary_bufs_sub .., binary_bufs_sub ..,
    binary_bufs_sub .., unary_bufs_sub .., unary_bufs_sub .., reshape_bufs_sub .., unary_bufs_sub .., unary_bufs_sub ..,
    binary_bufs_sub .., binary_bufs_sub .., unary_bufs_sub .., unary_bufs_sub .., reshape_bufs_sub .., unary_bufs_sub ..,
    unary_bufs_sub .., binary_bufs_sub .., binary_bufs_sub ..⟩

set_option maxRecDepth 8192 in
set_option maxHeartbeats 4000000 in
/-- Every one of these operations determines its result. -/
theorem ops2_fresh : ∀ op ∈ (ops2 : List (HloOp τ sig (Elt F))), op.fresh = ∅ := by
  intro _ h
  repeat (cases h with | head => rfl | tail _ h => ?_)
  exact nomatch h

set_option maxRecDepth 8192 in
set_option maxHeartbeats 8000000 in
/-- The result: the running sum after tap 24, from what the second stretch left. -/
theorem leaves2_sum (V : Valuation τ sig (Elt F)) :
    after ops2 V (Proc.devRef .tc main_v175) = sumC (V (Proc.devRef .tc main_v112)) (V (Proc.devRef .tc main_v118)) (V (Proc.devRef .tc main_arg0)) (V (Proc.devRef .tc main_arg1)) := by
  after_results_simp <;> rfl

set_option maxRecDepth 8192 in
set_option maxHeartbeats 8000000 in
/-- These operations do not write the input array. -/
theorem keeps2_x (V : Valuation τ sig (Elt F)) :
    after ops2 V (Proc.devRef .tc main_arg0) = V (Proc.devRef .tc main_arg0) := by
  after_results_simp <;> rfl

set_option maxRecDepth 8192 in
set_option maxHeartbeats 8000000 in
/-- These operations do not write the weights. -/
theorem keeps2_k (V : Valuation τ sig (Elt F)) :
    after ops2 V (Proc.devRef .tc main_arg1) = V (Proc.devRef .tc main_arg1) := by
  after_results_simp <;> rfl

end Cert.ReferenceIdeal.Line

end
-- ==== Proof.RefRun.lean ====
/-
  The plain-array program's run, from its three stretches.

  The program is its three stretches run one after the other, and each stretch is a list of operations run in order, so
  the whole program is the three lists joined and run in order. The library then gives, for every weakly fair execution,
  termination with every buffer at the operations' fold over the launch contents. The fold over a joined list is the
  folds one after the other, so the result buffer holds the third stretch's sum over what the second left over what the
  first left: the whole sum zeros + tap 0 + … + tap 24 of the two arguments (`total`), and the arguments are as launched.
-/
import proofs.«151491_j79972291051911_2_alg».proof.Proof.RefPart0
import proofs.«151491_j79972291051911_2_alg».proof.Proof.RefPart1
import proofs.«151491_j79972291051911_2_alg».proof.Proof.RefPart2

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The whole program's operations: the three stretches' lists joined. -/
abbrev ops : List (HloOp τ sig (Elt F)) := ops0 ++ (ops1 ++ ops2)

/-- The contents after a joined list are the contents after its second half, from the contents after its first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The program is the joined list run in order. -/
theorem main_eq (c : Dev nD) : main (F := F) c = seq ops := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, ops2_sub⟩⟩

theorem ops_fresh : ∀ op ∈ (ops : List (HloOp τ sig (Elt F))), op.fresh = ∅ := by
  intro op h
  rcases List.mem_append.mp h with h | h
  · exact ops0_fresh op h
  · rcases List.mem_append.mp h with h | h
    · exact ops1_fresh op h
    · exact ops2_fresh op h

/-- After the whole program the result buffer holds the whole sum of the two arguments' contents. -/
theorem result_eq (V : Valuation τ sig (Elt F)) :
    after ops V (Proc.devRef .tc main_v175) = total (V (Proc.devRef .tc main_arg0)) (V (Proc.devRef .tc main_arg1)) := by
  rw [after_append, after_append, leaves2_sum, leaves1_sum, leaves1_product, keeps1_x, keeps1_k,
    leaves0_sum, leaves0_window, leaves0_slab, keeps0_x, keeps0_k]
  exact stretches_eq_total _ _

/-- The whole program does not write the input array, -/
theorem keeps_x (V : Valuation τ sig (Elt F)) : after ops V (Proc.devRef .tc main_arg0) = V (Proc.devRef .tc main_arg0) := by
  rw [after_append, after_append, keeps2_x, keeps1_x, keeps0_x]

/-- nor the weights. -/
theorem keeps_k (V : Valuation τ sig (Elt F)) : after ops V (Proc.devRef .tc main_arg1) = V (Proc.devRef .tc main_arg1) := by
  rw [after_append, after_append, keeps2_k, keeps1_k, keeps0_k]

/-- On every device, for any float values, from any memory with zero counters: every weakly fair execution of the
    program terminates with the result buffer at the whole sum of the two arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175)
          = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v175).trans (result_eq _),
      (h c main_arg0).trans (keeps_x _),
      (h c main_arg1).trans (keeps_k _)⟩)
    (run_seq scopedRefs_eq scopedSems_eq defs main (fun _ => ops) main_eq (fun _ => ops_sub) m ρ (fun _ => ops_fresh))

end Cert.ReferenceIdeal.Line

end
-- ==== Proof.RefValue.lean ====
/-
  Over the extended reals the plain-array program's whole sum is the 25-tap sum of the specification.

  At (b, c, h, w):
    * the zero array holds 0;
    * a weight slab spread over the channels holds the slab's (b, 0, h, w): the slab is seen as [8, 256, 256], put back
      as [8, 1, 256, 256] — the same entries in the same order — and repeated along the channel axis;
    * tap n = 5 di + dj therefore holds x (b, c, h + di, w + dj) * k (b, n, h, w): the input cut at offset (di, dj) read at
      (b, c, h, w) is the input at (b, c, h + di, w + dj), and weight plane n cut out and read at (b, 0, h, w) is k (b, n, h, w).
  So the program's sum at (b, c, h, w) is 0 + product 0 + … + product 24 in tap order, and 0 + a = a for every extended
  real a — the only law used, and it needs no finiteness. What is left is the specification's sum, term for term.
-/
import proofs.«151491_j79972291051911_2_alg».proof.Proof.Spec
import proofs.«151491_j79972291051911_2_alg».proof.Proof.RefChain
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.ReferenceIdeal.Line

open Cert.ReferenceIdeal Cert.ReferenceIdeal.Gen Idealize.ShloMosaic Idealize.ShloMosaic.ValueIdx AdaptiveConv

/-- The zero array holds 0 everywhere. -/
theorem zeros_apply (i : S8x64x256x256.Idx) : zeros (F := Ideal) i = 0 := by
  unfold zeros
  refine (broadcastInDim_apply _ _ _ i ix0 (fun a => a.elim0)).trans ?_
  rw [constant_apply, Ideal.ofBits_zero_f32]

/-- A weight slab spread over the channels, at (b, c, h, w), is the slab at (b, 0, h, w). -/
theorem spread_apply (kk : FVec Ideal S8x1x256x256 .f32) (b : Fin 8) (c : Fin 64) (h w : Fin 256) :
    spread kk (ix4 b c h w) = kk (ix4 b (0 : Fin 1) h w) := by
  unfold spread
  refine (broadcastInDim_apply _ _ _ (ix4 b c h w) (ix4 b (0 : Fin 1) h w) (fun a => ?_)).trans ?_
  · match a with
    | ⟨0, _⟩ => rfl
    | ⟨1, _⟩ => rfl
    | ⟨2, _⟩ => rfl
    | ⟨3, _⟩ => rfl
  refine (broadcastInDim_apply _ _ _ (ix4 b (0 : Fin 1) h w) (ix3 b h w) (fun a => ?_)).trans ?_
  · match a with
    | ⟨0, _⟩ => rfl
    | ⟨1, _⟩ => rfl
    | ⟨2, _⟩ => rfl
  refine shapeCast_apply kk _ (ix3 b h w) (ix4 b (0 : Fin 1) h w) ?_
  rw [Shape.rowMajor_val_four, Shape.rowMajor_val_three]
  show ((b.val * 1 + 0) * 256 + h.val) * 256 + w.val = (b.val * 256 + h.val) * 256 + w.val
  omega

/-- Tap n = 5 di + dj at (b, c, h, w) is x (b, c, h + di, w + dj) * k (b, n, h, w). -/
theorem tap_apply (x : FVec Ideal S8x64x260x260 .f32) (k : FVec Ideal S8x25x256x256 .f32) (di dj n : Nat)
    (hdi : di < 5) (hdj : dj < 5) (hn : n < 25)
    (hx : S8x64x260x260.Slices ![0, 0, di, dj] S8x64x256x256) (hk : S8x25x256x256.Slices ![0, n, 0, 0] S8x1x256x256)
    (b : Fin 8) (c : Fin 64) (h w : Fin 256) :
    tap x k ![0, 0, di, dj] ![0, n, 0, 0] hx hk (ix4 b c h w)
      = x (ix4 b c (shift h ⟨di, hdi⟩) (shift w ⟨dj, hdj⟩)) * k (ix4 b (⟨n, hn⟩ : Fin 25) h w) := by
  have e1 : extractStridedSlice S8x64x256x256 ![0, 0, di, dj] x hx (ix4 b c h w)
      = x (ix4 b c (shift h ⟨di, hdi⟩) (shift w ⟨dj, hdj⟩)) :=
    extractStridedSlice_apply _ x hx (ix4 b c h w) _ (fun a => by
      match a with
      | ⟨0, _⟩ => show b.val = 0 + b.val; omega
      | ⟨1, _⟩ => show c.val = 0 + c.val; omega
      | ⟨2, _⟩ => show h.val + di = di + h.val; omega
      | ⟨3, _⟩ => show w.val + dj = dj + w.val; omega)
  have e2 : extractStridedSlice S8x1x256x256 ![0, n, 0, 0] k hk (ix4 b (0 : Fin 1) h w)
      = k (ix4 b (⟨n, hn⟩ : Fin 25) h w) :=
    extractStridedSlice_apply _ k hk (ix4 b (0 : Fin 1) h w) _ (fun a => by
      match a with
      | ⟨0, _⟩ => show b.val = 0 + b.val; omega
      | ⟨1, _⟩ => show n = n + 0; omega
      | ⟨2, _⟩ => show h.val = 0 + h.val; omega
      | ⟨3, _⟩ => show w.val = 0 + w.val; omega)
  unfold tap
  rw [mulf_apply, spread_apply, e1, e2]

/-- The program's whole sum is the specification's output array. -/
theorem total_eq_conv (x : FVec Ideal S8x64x260x260 .f32) (k : FVec Ideal S8x25x256x256 .f32) :
    total (F := Ideal) x k = conv x k := by
  funext i
  obtain ⟨b, c, h, w, rfl⟩ : ∃ (b : Fin 8) (c : Fin 64) (h w : Fin 256), i = ix4 b c h w :=
    ⟨i 0, i 1, i 2, i 3, eq_ix4 i⟩
  rw [conv_ix4]
  unfold total
  simp only [addf_apply]
  rw [tap_apply x k 0 0 0 (by decide) (by decide) (by decide), tap_apply x k 0 1 1 (by decide) (by decide) (by decide), tap_apply x k 0 2 2 (by decide) (by decide) (by decide),
    tap_apply x k 0 3 3 (by decide) (by decide) (by decide), tap_apply x k 0 4 4 (by decide) (by decide) (by decide), tap_apply x k 1 0 5 (by decide) (by decide) (by decide),
    tap_apply x k 1 1 6 (by decide) (by decide) (by decide), tap_apply x k 1 2 7 (by decide) (by decide) (by decide), tap_apply x k 1 3 8 (by decide) (by decide) (by decide),
    tap_apply x k 1 4 9 (by decide) (by decide) (by decide), tap_apply x k 2 0 10 (by decide) (by decide) (by decide), tap_apply x k 2 1 11 (by decide) (by decide) (by decide),
    tap_apply x k 2 2 12 (by decide) (by decide) (by decide), tap_apply x k 2 3 13 (by decide) (by decide) (by decide), tap_apply x k 2 4 14 (by decide) (by decide) (by decide),
    tap_apply x k 3 0 15 (by decide) (by decide) (by decide), tap_apply x k 3 1 16 (by decide) (by decide) (by decide), tap_apply x k 3 2 17 (by decide) (by decide) (by decide),
    tap_apply x k 3 3 18 (by decide) (by decide) (by decide), tap_apply x k 3 4 19 (by decide) (by decide) (by decide), tap_apply x k 4 0 20 (by decide) (by decide) (by decide),
    tap_apply x k 4 1 21 (by decide) (by decide) (by decide), tap_apply x k 4 2 22 (by decide) (by decide) (by decide), tap_apply x k 4 3 23 (by decide) (by decide) (by decide),
    tap_apply x k 4 4 24 (by decide) (by decide) (by decide)]
  rw [zeros_apply, zero_add]
  rfl

end Cert.ReferenceIdeal.Line

end
-- ==== Proof.lean ====
/-
  Per-pixel adaptive convolution: the blocked kernel against the plain-array program, over the extended reals.

  Both programs compute, for an input x of shape [8, 64, 260, 260] and weights k of shape [8, 25, 256, 256],

      out (b, c, h, w) = the sum over di, dj in 0..4 of x (b, c, h + di, w + dj) * k (b, 5 di + dj, h, w),

  the 25 products added left to right in tap order (Proof/Spec.lean).

  The kernel works block by block over a grid of 8 x 4 points (batch entry, group of 16 channels). At each point its body
  stores into the output block 25 times, each time through the whole block, each later store adding one tap's product to
  what it reads back of the block; so the block ends holding the 25 taps composed in order (Proof/KernelBlock.lean), which
  over the extended reals is the 25-tap sum of the point's two input blocks (Proof/BlockValue.lean); the input blocks are
  the argument arrays read at the matching positions and the 32 output blocks cover the output array, so the output array
  ends holding the sum above (Proof/KernelValue.lean).

  The plain-array program starts from the all-zero array and adds the 25 taps, each the input cut to a 256 x 256 window
  times one weight plane spread over the channels. Its text comes in three stretches; each is read as a list of operations
  (Proof/RefPart0.lean, RefPart1.lean, RefPart2.lean), the three are joined into the program's run (Proof/RefRun.lean), and
  over the extended reals its result is 0 + product 0 + … + product 24 at every position, which is the sum above because
  0 + a = a (Proof/RefValue.lean). That is the only law of arithmetic the comparison needs, and it holds for every
  extended real, so the inputs' finiteness is never used.

  The idealization rewrote nothing, so it preserves the kernel trivially; the three frames are the generated frame of each
  kernel and, for the plain-array program, its run with the result forgotten.
-/
import proofs.«151491_j79972291051911_2_alg».proof.Defs
import proofs.«151491_j79972291051911_2_alg».proof.Proof.Gen.Kernel
import proofs.«151491_j79972291051911_2_alg».proof.Proof.Gen.Kernel.Skeleton
import proofs.«151491_j79972291051911_2_alg».proof.Proof.Gen.Kernel.Launch
import proofs.«151491_j79972291051911_2_alg».proof.Proof.Gen.Kernel.Points
import proofs.«151491_j79972291051911_2_alg».proof.Proof.Gen.Kernel.Frame
import proofs.«151491_j79972291051911_2_alg».proof.Proof.Gen.KernelIdeal
import proofs.«151491_j79972291051911_2_alg».proof.Proof.Gen.KernelIdeal.Skeleton
import proofs.«151491_j79972291051911_2_alg».proof.Proof.Gen.KernelIdeal.Launch
import proofs.«151491_j79972291051911_2_alg».proof.Proof.Gen.KernelIdeal.Points
import proofs.«151491_j79972291051911_2_alg».proof.Proof.Gen.KernelIdeal.Frame
import proofs.«151491_j79972291051911_2_alg».proof.Proof.Gen.ReferenceIdeal
import proofs.«151491_j79972291051911_2_alg».proof.Proof.Gen.Pre_finite_inputs
import proofs.«151491_j79972291051911_2_alg».proof.Proof.Gen.KernelIdeal.Value
import proofs.«151491_j79972291051911_2_alg».proof.Proof.KernelValue
import proofs.«151491_j79972291051911_2_alg».proof.Proof.RefRun
import proofs.«151491_j79972291051911_2_alg».proof.Proof.RefValue
import Idealize.ShloMosaic.Adequacy
import Idealize.ShloMosaic.Init

noncomputable section

namespace Cert.Proof

open Idealize.ShloMosaic Idealize.ShloMosaic.TcCoe Idealize.SL.Sem AdaptiveConv

/-- The kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The plain-array program runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Line.run (F := Ideal) m ρ)

/-- The idealization rewrote no operation. -/
theorem preserves : Cert.preserves_Kernel_KernelIdeal := trivial

/-- Over the extended reals, from memories that agree on the two arguments, the kernel's output array and the plain-array
    program's result are both the 25-tap sum of the arguments. -/
theorem algebraic : Cert.algebraic_KernelIdeal_ReferenceIdeal := by
  intro m ρ m' ρ' _ hagree
  refine ⟨fun c => conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Line.run (F := Ideal) m' ρ')
  rw [Cert.ReferenceIdeal.Line.total_eq_conv, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
